-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S167772 : Shape := ⟨1, ![167772]⟩
abbrev S4097 : Shape := ⟨1, ![4097]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S167772 : S_.BroadcastsInDim S167772 (![] : Fin 0 → Fin S167772.rank)
  reducesTo_S167772_S_d0 : S167772.ReducesTo [0] S_

variable [Facts]

def fn {F : FTy → Type} [FloatOps F] (main_arg0 : FVec F S4x2048x4096 .f32) (main_arg1 : FVec F S167772 .f32) (main_arg2 : IVec S4097 32) (main_arg3 : IVec S167772 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S167772 .f32 := Host.absf main_arg1
  let main_cst_0 : FVec F S_ .f32 := constant S_ .f32 0x7F800000#32
  let main_v5 : FVec F S167772 .f32 := broadcastInDim S167772 ![] bcast_S_S167772 main_cst_0
  let main_v6 : IVec S167772 1 := cmpf .olt main_v4 main_v5
  let main_c_1 : IVec S_ 1 := constantI S_ 1 1#1
  let main_v7 : IVec S_ 1 := (fun x v => Host.reduce IntOp.andi x v reducesTo_S167772_S_d0 h_S_) main_v6 main_c_1
  let main_v8 : IVec S_ 1 := andi main_v3 main_v7
  main_v8
-- ==== Kernel.lean ====
abbrev S4x2048x4096 : Shape := ⟨3, ![4, 2048, 4096]⟩
abbrev S167772 : Shape := ⟨1, ![167772]⟩
abbrev S4097 : Shape := ⟨1, ![4097]⟩
abbrev S4096 : Shape := ⟨1, ![4096]⟩
abbrev S1 : Shape := ⟨1, ![1]⟩
abbrev S4095 : Shape := ⟨1, ![4095]⟩
abbrev S_ : Shape := ⟨0, ![]⟩
abbrev S4096x1 : Shape := ⟨2, ![4096, 1]⟩
abbrev S167772x1 : Shape := ⟨2, ![167772, 1]⟩
abbrev S1x1 : Shape := ⟨2, ![1, 1]⟩
abbrev S4096x4096 : Shape := ⟨2, ![4096, 4096]⟩
abbrev S167772x2 : Shape := ⟨2, ![167772, 2]⟩
abbrev S8192x4096 : Shape := ⟨2, ![8192, 4096]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 84
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S167772, .f32⟩
  | .hbm, ⟨2, _⟩ => ⟨S4097, .i32⟩
  | .hbm, ⟨3, _⟩ => ⟨S167772, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S1, .i32⟩
  | .hbm, ⟨9, _⟩ => ⟨S4095, .i32⟩
  | .hbm, ⟨10, _⟩ => ⟨S4096, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S_, .i32⟩
  | .hbm, ⟨19, _⟩ => ⟨S167772, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S_, .i32⟩
  | .hbm, ⟨29, _⟩ => ⟨S4096, .i32⟩
  | .hbm, ⟨30, _⟩ => ⟨S167772, .i32⟩
  | .hbm, ⟨31, _⟩ => ⟨S_, .i32⟩
  | .hbm, ⟨32, _⟩ => ⟨S_, .i32⟩
  | .hbm, ⟨33, _⟩ => ⟨S167772, .i32⟩
  | .hbm, ⟨34, _⟩ => ⟨S_, .i32⟩
  | .hbm, ⟨35, _⟩ => ⟨S167772, .i32⟩
  | .hbm, ⟨36, _⟩ => ⟨S167772, .i32⟩
  | .hbm, ⟨37, _⟩ => ⟨S_, .i32⟩
  | .hbm, ⟨38, _⟩ => ⟨S167772, .i32⟩
  | .hbm, ⟨39, _⟩ => ⟨S167772, .i1⟩
  | .hbm, ⟨40, _⟩ => ⟨S_, .i32⟩
  | .hbm, ⟨41, _⟩ => ⟨S167772, .i32⟩
  | .hbm, ⟨42, _⟩ => ⟨S167772, .i32⟩
  | .hbm, ⟨43, _⟩ => ⟨S167772, .i32⟩
  | .hbm, ⟨44, _⟩ => ⟨S167772x1, .i32⟩
  | .hbm, ⟨45, _⟩ => ⟨S1, .i32⟩
  | .hbm, ⟨46, _⟩ => ⟨S_, .i32⟩
  | .hbm, ⟨47, _⟩ => ⟨S167772x1, .i32⟩
  | .hbm, ⟨48, _⟩ => ⟨S167772x1, .i1⟩
  | .hbm, ⟨49, _⟩ => ⟨S1x1, .i32⟩
  | .hbm, ⟨50, _⟩ => ⟨S167772x1, .i32⟩
  | .hbm, ⟨51, _⟩ => ⟨S167772x1, .i1⟩
  | .hbm, ⟨52, _⟩ => ⟨S167772x1, .i1⟩
  | .hbm, ⟨53, _⟩ => ⟨S_, .i1⟩
  | .hbm, ⟨54, _⟩ => ⟨S167772, .i1⟩
  | .hbm, ⟨55, _⟩ => ⟨S167772, .i32⟩
  | .hbm, ⟨56, _⟩ => ⟨S_, .i32⟩
  | .hbm, ⟨57, _⟩ => ⟨S167772, .i32⟩
  | .hbm, ⟨58, _⟩ => ⟨S167772, .i32⟩
  | .hbm, ⟨59, _⟩ => ⟨S_, .f32⟩
  | .hbm, ⟨60, _⟩ => ⟨S4096x4096, .f32⟩
  | .hbm, ⟨61, _⟩ => ⟨S_, .i32⟩
  | .hbm, ⟨62, _⟩ => ⟨S167772, .i32⟩
  | .hbm, ⟨63, _⟩ => ⟨S167772, .i1⟩
  | .hbm, ⟨64, _⟩ => ⟨S_, .i32⟩
  | .hbm, ⟨65, _⟩ => ⟨S167772, .i32⟩
  | .hbm, ⟨66, _⟩ => ⟨S167772, .i32⟩
  | .hbm, ⟨67, _⟩ => ⟨S167772, .i32⟩
  | .hbm, ⟨68, _⟩ => ⟨S_, .i32⟩
  | .hbm, ⟨69, _⟩ => ⟨S167772, .i32⟩
  | .hbm, ⟨70, _⟩ => ⟨S167772, .i1⟩
  | .hbm, ⟨71, _⟩ => ⟨S_, .i32⟩
  | .hbm, ⟨72, _⟩ => ⟨S167772, .i32⟩
  | .hbm, ⟨73, _⟩ => ⟨S167772, .i32⟩
  | .hbm, ⟨74, _⟩ => ⟨S167772, .i32⟩
  | .hbm, ⟨75, _⟩ => ⟨S167772x1, .i32⟩
  | .hbm, ⟨76, _⟩ => ⟨S167772x1, .i32⟩
  | .hbm, ⟨77, _⟩ => ⟨S167772x2, .i32⟩
  | .hbm, ⟨78, _⟩ => ⟨S4096x4096, .f32⟩
  | .hbm, ⟨79, _⟩ => ⟨S4096x4096, .bf16⟩
  | .hbm, ⟨80, _⟩ => ⟨S8192x4096, .f32⟩
  | .hbm, ⟨81, _⟩ => ⟨S8192x4096, .bf16⟩
  | .hbm, ⟨82, _⟩ => ⟨S8192x4096, .f32⟩
  | .hbm, ⟨83, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_call2_call0_c : Ref sig .tc := ⟨.hbm, 15, rfl⟩
abbrev main_call2_call0_v0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_call3_call0_c : Ref sig .tc := ⟨.hbm, 31, rfl⟩
abbrev main_call3_call0_v0 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_call4_c : Ref sig .tc := ⟨.hbm, 37, rfl⟩
abbrev main_call4_v0 : Ref sig .tc := ⟨.hbm, 38, rfl⟩
abbrev main_call4_v1 : Ref sig .tc := ⟨.hbm, 39, rfl⟩
abbrev main_call4_c_0 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_c_1 : Ref sig .tc := ⟨.hbm, 45, rfl⟩
abbrev main_call4_c_2 : Ref sig .tc := ⟨.hbm, 46, rfl⟩
abbrev main_call4_v6 : Ref sig .tc := ⟨.hbm, 47, rfl⟩
abbrev main_call4_v7 : Ref sig .tc := ⟨.hbm, 48, rfl⟩
abbrev main_call4_v8 : Ref sig .tc := ⟨.hbm, 49, rfl⟩
abbrev main_call4_v9 : Ref sig .tc := ⟨.hbm, 50, rfl⟩
abbrev main_call4_v10 : Ref sig .tc := ⟨.hbm, 51, rfl⟩
abbrev main_call4_v11 : Ref sig .tc := ⟨.hbm, 52, rfl⟩
abbrev main_call4_c_3 : Ref sig .tc := ⟨.hbm, 53, rfl⟩
abbrev main_call4_v12 : Ref sig .tc := ⟨.hbm, 54, rfl⟩
abbrev main_call4_v13 : Ref sig .tc := ⟨.hbm, 55, rfl⟩
abbrev main_call4_c_4 : Ref sig .tc := ⟨.hbm, 56, rfl⟩
abbrev main_call4_v14 : Ref sig .tc := ⟨.hbm, 57, rfl⟩
abbrev main_v18 : Ref sig .tc := ⟨.hbm, 58, rfl⟩
abbrev main_cst : Ref sig .tc := ⟨.hbm, 59, rfl⟩
abbrev main_v19 : Ref sig .tc := ⟨.hbm, 60, rfl⟩
abbrev main_c_6 : Ref sig .tc := ⟨.hbm, 61, rfl⟩
abbrev main_v20 : Ref sig .tc := ⟨.hbm, 62, rfl⟩
abbrev main_v21 : Ref sig .tc := ⟨.hbm, 63, rfl⟩
abbrev main_c_7 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_c_8 : Ref sig .tc := ⟨.hbm, 68, rfl⟩
abbrev main_v25 : Ref sig .tc := ⟨.hbm, 69, rfl⟩
abbrev main_v26 : Ref sig .tc := ⟨.hbm, 70, rfl⟩
abbrev main_c_9 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S4097_S4096_1 : S4097.Slices ![1] S4096
  slices_S4097_S4096_0 : S4097.Slices ![0] S4096
  slices_S4096_S1_4095 : S4096.Slices ![4095] S1
  slices_S4096_S4095_0 : S4096.Slices ![0] S4095
  concatenates_S1_S4095_S4096_d0 : Shape.Concatenates [S1, S4095] S4096 0
  bcast_S_S1 : S_.BroadcastsInDim S1 (![] : Fin 0 → Fin S1.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S167772 : S_.BroadcastsInDim S167772 (![] : Fin 0 → Fin S167772.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S167772_S167772_w167772s1p167771_0 : S167772.ReduceWindows (![167772] : Fin 1 → Nat) ![1] ![167771] ![0] S167772
  bcast_S167772_S167772x1_0 : S167772.BroadcastsInDim S167772x1 (![0] : Fin 1 → Fin S167772x1.rank)
  bcast_S_S167772x1 : S_.BroadcastsInDim S167772x1 (![] : Fin 0 → Fin S167772x1.rank)
  bcast_S1_S1x1_1 : S1.BroadcastsInDim S1x1 (![1] : Fin 1 → Fin S1x1.rank)
  bcast_S1x1_S167772x1_0_1 : S1x1.BroadcastsInDim S167772x1 (![0, 1] : Fin 2 → Fin S167772x1.rank)
  reducesTo_S167772x1_S167772_d1 : S167772x1.ReducesTo [1] S167772
  bcast_S_S4096x4096 : S_.BroadcastsInDim S4096x4096 (![] : Fin 0 → Fin S4096x4096.rank)
  concatenates_S167772x1_S167772x1_S167772x2_d1 : Shape.Concatenates [S167772x1, S167772x1] S167772x2 1
  bitsLt_bf16_f32 : FTy.bits .bf16 < FTy.bits .f32
  shapeCasts_S4x2048x4096_S8192x4096 : S4x2048x4096.ShapeCasts S8192x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S8192x4096_S4x2048x4096 : S8192x4096.ShapeCasts S4x2048x4096
  scatter_S4096_S1_S__n_0_0_0_wf : ScatterDims.WF S4096 S1 S_ [] [0] [0] 0
  scatter_S167772_S4096x1_S4096_n_0_0_1_wf : ScatterDims.WF S167772 S4096x1 S4096 [] [0] [0] 1
  gather_S4096_S167772x1_S167772_n_0_n_n_0_1_1_wf : GatherDims.WF S4096 S167772x1 S167772 [] [0] [] [0] [] 1 ![1]
  scatter_S4096x4096_S167772x2_S167772_n_01_01_1_wf : ScatterDims.WF S4096x4096 S167772x2 S167772 [] [0, 1] [0, 1] 1
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def scatter_S167772_S4096x1_S4096_n_0_0_1 : ScatterDims S167772 S4096x1 S4096 where
  updateWindowDims := []
  insertedWindowDims := [0]
  scatterDimsToOperandDims := [0]
  indexVectorDim := 1
  wf := scatter_S167772_S4096x1_S4096_n_0_0_1_wf
def gather_S4096_S167772x1_S167772_n_0_n_n_0_1_1 : GatherDims S4096 S167772x1 S167772 where
  offsetDims := []
  collapsedSliceDims := [0]
  operandBatchingDims := []
  startIndicesBatchingDims := []
  startIndexMap := [0]
  indexVectorDim := 1
  sliceSizes := ![1]
  wf := gather_S4096_S167772x1_S167772_n_0_n_n_0_1_1_wf
def scatter_S4096x4096_S167772x2_S167772_n_01_01_1 : ScatterDims S4096x4096 S167772x2 S167772 where
  updateWindowDims := []
  insertedWindowDims := [0, 1]
  scatterDimsToOperandDims := [0, 1]
  indexVectorDim := 1
  wf := scatter_S4096x4096_S167772x2_S167772_n_01_01_1_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v36) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S167772 : Shape := ⟨1, ![167772]⟩
abbrev S4097 : Shape := ⟨1, ![4097]⟩
abbrev S4096 : Shape := ⟨1, ![4096]⟩
abbrev S1 : Shape := ⟨1, ![1]⟩
abbrev S4095 : Shape := ⟨1, ![4095]⟩
abbrev S_ : Shape := ⟨0, ![]⟩
abbrev S4096x1 : Shape := ⟨2, ![4096, 1]⟩
abbrev S167772x1 : Shape := ⟨2, ![167772, 1]⟩
abbrev S1x1 : Shape := ⟨2, ![1, 1]⟩
abbrev S4096x4096 : Shape := ⟨2, ![4096, 4096]⟩
abbrev S167772x2 : Shape := ⟨2, ![167772, 2]⟩

abbrev nBuf : Space → Nat
  | .hbm => 80
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S167772, .f32⟩
  | .hbm, ⟨2, _⟩ => ⟨S4097, .i32⟩
  | .hbm, ⟨3, _⟩ => ⟨S167772, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S1, .i32⟩
  | .hbm, ⟨9, _⟩ => ⟨S4095, .i32⟩
  | .hbm, ⟨10, _⟩ => ⟨S4096, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S_, .i32⟩
  | .hbm, ⟨19, _⟩ => ⟨S167772, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S_, .i32⟩
  | .hbm, ⟨29, _⟩ => ⟨S4096, .i32⟩
  | .hbm, ⟨30, _⟩ => ⟨S167772, .i32⟩
  | .hbm, ⟨31, _⟩ => ⟨S_, .i32⟩
  | .hbm, ⟨32, _⟩ => ⟨S_, .i32⟩
  | .hbm, ⟨33, _⟩ => ⟨S167772, .i32⟩
  | .hbm, ⟨34, _⟩ => ⟨S_, .i32⟩
  | .hbm, ⟨35, _⟩ => ⟨S167772, .i32⟩
  | .hbm, ⟨36, _⟩ => ⟨S167772, .i32⟩
  | .hbm, ⟨37, _⟩ => ⟨S_, .i32⟩
  | .hbm, ⟨38, _⟩ => ⟨S167772, .i32⟩
  | .hbm, ⟨39, _⟩ => ⟨S167772, .i1⟩
  | .hbm, ⟨40, _⟩ => ⟨S_, .i32⟩
  | .hbm, ⟨41, _⟩ => ⟨S167772, .i32⟩
  | .hbm, ⟨42, _⟩ => ⟨S167772, .i32⟩
  | .hbm, ⟨43, _⟩ => ⟨S167772, .i32⟩
  | .hbm, ⟨44, _⟩ => ⟨S167772x1, .i32⟩
  | .hbm, ⟨45, _⟩ => ⟨S1, .i32⟩
  | .hbm, ⟨46, _⟩ => ⟨S_, .i32⟩
  | .hbm, ⟨47, _⟩ => ⟨S167772x1, .i32⟩
  | .hbm, ⟨48, _⟩ => ⟨S167772x1, .i1⟩
  | .hbm, ⟨49, _⟩ => ⟨S1x1, .i32⟩
  | .hbm, ⟨50, _⟩ => ⟨S167772x1, .i32⟩
  | .hbm, ⟨51, _⟩ => ⟨S167772x1, .i1⟩
  | .hbm, ⟨52, _⟩ => ⟨S167772x1, .i1⟩
  | .hbm, ⟨53, _⟩ => ⟨S_, .i1⟩
  | .hbm, ⟨54, _⟩ => ⟨S167772, .i1⟩
  | .hbm, ⟨55, _⟩ => ⟨S167772, .i32⟩
  | .hbm, ⟨56, _⟩ => ⟨S_, .i32⟩
  | .hbm, ⟨57, _⟩ => ⟨S167772, .i32⟩
  | .hbm, ⟨58, _⟩ => ⟨S167772, .i32⟩
  | .hbm, ⟨59, _⟩ => ⟨S_, .f32⟩
  | .hbm, ⟨60, _⟩ => ⟨S4096x4096, .f32⟩
  | .hbm, ⟨61, _⟩ => ⟨S_, .i32⟩
  | .hbm, ⟨62, _⟩ => ⟨S167772, .i32⟩
  | .hbm, ⟨63, _⟩ => ⟨S167772, .i1⟩
  | .hbm, ⟨64, _⟩ => ⟨S_, .i32⟩
  | .hbm, ⟨65, _⟩ => ⟨S167772, .i32⟩
  | .hbm, ⟨66, _⟩ => ⟨S167772, .i32⟩
  | .hbm, ⟨67, _⟩ => ⟨S167772, .i32⟩
  | .hbm, ⟨68, _⟩ => ⟨S_, .i32⟩
  | .hbm, ⟨69, _⟩ => ⟨S167772, .i32⟩
  | .hbm, ⟨70, _⟩ => ⟨S167772, .i1⟩
  | .hbm, ⟨71, _⟩ => ⟨S_, .i32⟩
  | .hbm, ⟨72, _⟩ => ⟨S167772, .i32⟩
  | .hbm, ⟨73, _⟩ => ⟨S167772, .i32⟩
  | .hbm, ⟨74, _⟩ => ⟨S167772, .i32⟩
  | .hbm, ⟨75, _⟩ => ⟨S167772x1, .i32⟩
  | .hbm, ⟨76, _⟩ => ⟨S167772x1, .i32⟩
  | .hbm, ⟨77, _⟩ => ⟨S167772x2, .i32⟩
  | .hbm, ⟨78, _⟩ => ⟨S4096x4096, .f32⟩
  | .hbm, ⟨79, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_call2_call0_c : Ref sig .tc := ⟨.hbm, 15, rfl⟩
abbrev main_call2_call0_v0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_call3_call0_c : Ref sig .tc := ⟨.hbm, 31, rfl⟩
abbrev main_call3_call0_v0 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_call4_c : Ref sig .tc := ⟨.hbm, 37, rfl⟩
abbrev main_call4_v0 : Ref sig .tc := ⟨.hbm, 38, rfl⟩
abbrev main_call4_v1 : Ref sig .tc := ⟨.hbm, 39, rfl⟩
abbrev main_call4_c_0 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_c_1 : Ref sig .tc := ⟨.hbm, 45, rfl⟩
abbrev main_call4_c_2 : Ref sig .tc := ⟨.hbm, 46, rfl⟩
abbrev main_call4_v6 : Ref sig .tc := ⟨.hbm, 47, rfl⟩
abbrev main_call4_v7 : Ref sig .tc := ⟨.hbm, 48, rfl⟩
abbrev main_call4_v8 : Ref sig .tc := ⟨.hbm, 49, rfl⟩
abbrev main_call4_v9 : Ref sig .tc := ⟨.hbm, 50, rfl⟩
abbrev main_call4_v10 : Ref sig .tc := ⟨.hbm, 51, rfl⟩
abbrev main_call4_v11 : Ref sig .tc := ⟨.hbm, 52, rfl⟩
abbrev main_call4_c_3 : Ref sig .tc := ⟨.hbm, 53, rfl⟩
abbrev main_call4_v12 : Ref sig .tc := ⟨.hbm, 54, rfl⟩
abbrev main_call4_v13 : Ref sig .tc := ⟨.hbm, 55, rfl⟩
abbrev main_call4_c_4 : Ref sig .tc := ⟨.hbm, 56, rfl⟩
abbrev main_call4_v14 : Ref sig .tc := ⟨.hbm, 57, rfl⟩
abbrev main_v18 : Ref sig .tc := ⟨.hbm, 58, rfl⟩
abbrev main_cst : Ref sig .tc := ⟨.hbm, 59, rfl⟩
abbrev main_v19 : Ref sig .tc := ⟨.hbm, 60, rfl⟩
abbrev main_c_6 : Ref sig .tc := ⟨.hbm, 61, rfl⟩
abbrev main_v20 : Ref sig .tc := ⟨.hbm, 62, rfl⟩
abbrev main_v21 : Ref sig .tc := ⟨.hbm, 63, rfl⟩
abbrev main_c_7 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_c_8 : Ref sig .tc := ⟨.hbm, 68, rfl⟩
abbrev main_v25 : Ref sig .tc := ⟨.hbm, 69, rfl⟩
abbrev main_v26 : Ref sig .tc := ⟨.hbm, 70, rfl⟩
abbrev main_c_9 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩

abbrev nD : Nat := 1
abbrev τ : Topo := Topo.v7x

variable {F : FTy → Type} [FloatOps F]

class Facts₀ : Prop where
  slices_S4097_S4096_1 : S4097.Slices ![1] S4096
  slices_S4097_S4096_0 : S4097.Slices ![0] S4096
  slices_S4096_S1_4095 : S4096.Slices ![4095] S1
  slices_S4096_S4095_0 : S4096.Slices ![0] S4095
  concatenates_S1_S4095_S4096_d0 : Shape.Concatenates [S1, S4095] S4096 0
  bcast_S_S1 : S_.BroadcastsInDim S1 (![] : Fin 0 → Fin S1.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S167772 : S_.BroadcastsInDim S167772 (![] : Fin 0 → Fin S167772.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S167772_S167772_w167772s1p167771_0 : S167772.ReduceWindows (![167772] : Fin 1 → Nat) ![1] ![167771] ![0] S167772
  bcast_S167772_S167772x1_0 : S167772.BroadcastsInDim S167772x1 (![0] : Fin 1 → Fin S167772x1.rank)
  bcast_S_S167772x1 : S_.BroadcastsInDim S167772x1 (![] : Fin 0 → Fin S167772x1.rank)
  bcast_S1_S1x1_1 : S1.BroadcastsInDim S1x1 (![1] : Fin 1 → Fin S1x1.rank)
  bcast_S1x1_S167772x1_0_1 : S1x1.BroadcastsInDim S167772x1 (![0, 1] : Fin 2 → Fin S167772x1.rank)
  reducesTo_S167772x1_S167772_d1 : S167772x1.ReducesTo [1] S167772
  bcast_S_S4096x4096 : S_.BroadcastsInDim S4096x4096 (![] : Fin 0 → Fin S4096x4096.rank)
  concatenates_S167772x1_S167772x1_S167772x2_d1 : Shape.Concatenates [S167772x1, S167772x1] S167772x2 1
  scatter_S4096_S1_S__n_0_0_0_wf : ScatterDims.WF S4096 S1 S_ [] [0] [0] 0
  scatter_S167772_S4096x1_S4096_n_0_0_1_wf : ScatterDims.WF S167772 S4096x1 S4096 [] [0] [0] 1
  gather_S4096_S167772x1_S167772_n_0_n_n_0_1_1_wf : GatherDims.WF S4096 S167772x1 S167772 [] [0] [] [0] [] 1 ![1]
  scatter_S4096x4096_S167772x2_S167772_n_01_01_1_wf : ScatterDims.WF S4096x4096 S167772x2 S167772 [] [0, 1] [0, 1] 1
  dot_S4x2048x4096_S4096x4096_S4x2048x4096_2_1_01_0_n_n_wf : DotDims.WF S4x2048x4096 S4096x4096 S4x2048x4096 [2] [1] [0, 1] [0] [] []

variable [Facts₀]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def scatter_S167772_S4096x1_S4096_n_0_0_1 : ScatterDims S167772 S4096x1 S4096 where
  updateWindowDims := []
  insertedWindowDims := [0]
  scatterDimsToOperandDims := [0]
  indexVectorDim := 1
  wf := scatter_S167772_S4096x1_S4096_n_0_0_1_wf
def gather_S4096_S167772x1_S167772_n_0_n_n_0_1_1 : GatherDims S4096 S167772x1 S167772 where
  offsetDims := []
  collapsedSliceDims := [0]
  operandBatchingDims := []
  startIndicesBatchingDims := []
  startIndexMap := [0]
  indexVectorDim := 1
  sliceSizes := ![1]
  wf := gather_S4096_S167772x1_S167772_n_0_n_n_0_1_1_wf
def scatter_S4096x4096_S167772x2_S167772_n_01_01_1 : ScatterDims S4096x4096 S167772x2 S167772 where
  updateWindowDims := []
  insertedWindowDims := [0, 1]
  scatterDimsToOperandDims := [0, 1]
  indexVectorDim := 1
  wf := scatter_S4096x4096_S167772x2_S167772_n_01_01_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelCases.lean ====
/-
  What one grid point of the blocked matrix product leaves behind.

  The grid has 4 × 4 × 8 points (i, j, k): row block i of the activations, column block j of the weight, and the
  contraction taken in 8 blocks k of 512 features. The body keeps an accumulator block of 2048 × 1024 entries
  between the points of one (i, j): at k = 0 it first resets the accumulator to zero; at every point it adds to
  the accumulator the product of the current 2048 × 512 activation block with the current 512 × 1024 weight
  block; at k = 7 it also copies the accumulator to the output block. So whatever the case, the accumulator ends
  the point at  acc + A·B  (with acc the zero block at k = 0), and at k = 7 the output block holds the same.
-/
import proofs.«126825_j56341380989458_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- A point with 0 < k < 7: the accumulator, found at xs0, ends at xs0 + x0·x1. -/
theorem sout_B (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : ¬cond0_1 i)
    (x0 : Vec F S2048x512 .bf16) (x1 : Vec F S512x1024 .bf16) (xs0 : Vec F S2048x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg5.read_unread, harg6.read_unread, View.ld_unit_zero (S := S2048x1024) hz, View.ld_unit_zero (S := S2048x512) hz, View.ld_unit_zero (S := S512x1024) hz]

/-- A point with k = 0: the accumulator is reset to the zero block and ends at 0 + x0·x1. -/
theorem sout_A (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x512 .bf16) (x1 : Vec F S512x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, View.ld_unit_zero (S := S2048x1024) hz, View.ld_unit_zero (S := S2048x512) hz, View.ld_unit_zero (S := S512x1024) hz]

/-- A point with k = 7: the accumulator, found at xs0, ends at xs0 + x0·x1, -/
theorem sout_C (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S512x1024 .bf16) (xs0 : Vec F S2048x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg5.read_unread, harg6.read_unread, View.ld_unit_zero (S := S2048x1024) hz, View.ld_unit_zero (S := S2048x512) hz, View.ld_unit_zero (S := S512x1024) hz]

/-- and the output block is that accumulator, read back. -/
theorem out_C (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S512x1024 .bf16) (xs0 : Vec F S2048x1024 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg6.read_unread, View.ld_unit_zero (S := S2048x1024) hz, View.ld_unit_zero (S := S2048x512) hz, View.ld_unit_zero (S := S512x1024) hz]

end Cert.KernelIdeal.Cases

end
-- ==== Proof.BlockValue.lean ====
/-
  One step of the blocked product, read at an entry.

  The accumulating step takes the running block xs (2048 by 1024), a block x0 of the left factor (2048 by 512)
  and a block x1 of the right factor (512 by 1024), and returns xs + x0 · x1. Over the extended reals the
  product of the two blocks at entry (p, q) is the plain sum, over the 512 shared positions kk, of
  x0[p, kk] · x1[kk, q]: the accumulator handed to the product is the zero array, the three casts around it are
  casts of a shape to itself, and the contraction runs over one axis, so its index is a single coordinate.
  The reset step is the zero array: every entry is the float zero.
-/
import Idealize.ShloMosaic.Lib.ValueIdx
import Idealize.ShloMosaic.Lib.Pipeline.Value
import Idealize.ShloMosaic.PureOps.Ideal.Laws
import proofs.«126825_j56341380989458_2_alg».proof.Proof.Gen.KernelIdeal.Skeleton

noncomputable section

open scoped BigOperators

namespace Cert.KernelIdeal.BlockValue

open Idealize.ShloMosaic Idealize.ShloMosaic.ValueIdx
open Cert.KernelIdeal Cert.KernelIdeal.Facts₀

variable [Cert.KernelIdeal.Facts]

/-- The dimension numbers of the block product: left axis 1 against right axis 0. -/
abbrev D : DotDims S2048x512 S512x1024 S2048x1024 := dot_S2048x512_S512x1024_S2048x1024_1_0_0_1_n_n

/-- The left factor's index at result entry (p, q) and shared position kk is (p, kk). -/
theorem lhsIdx_eq (p : Fin 2048) (q : Fin 1024) (kk : Fin 512) :
    D.lhsIdx (ix2 p q) ((contrEquiv1 D 512 rfl rfl).symm kk) = ix2 p kk := by
  funext a
  match a with
  | ⟨0, _⟩ => exact Fin.ext rfl
  | ⟨1, _⟩ =>
    refine Fin.ext ?_
    exact (D.lhsIdx_val_of_single (cl := 1) rfl (ix2 p q) _).trans (contrEquiv1_symm_val D 512 rfl rfl kk)

/-- The right factor's index at result entry (p, q) and shared position kk is (kk, q). -/
theorem rhsIdx_eq (p : Fin 2048) (q : Fin 1024) (kk : Fin 512) :
    D.rhsIdx (ix2 p q) ((contrEquiv1 D 512 rfl rfl).symm kk) = ix2 kk q := by
  funext a
  match a with
  | ⟨0, _⟩ =>
    refine Fin.ext ?_
    exact (D.rhsIdx_val_of_single (cr := 0) rfl (ix2 p q) _).trans (contrEquiv1_symm_val D 512 rfl rfl kk)
  | ⟨1, _⟩ => exact Fin.ext rfl

/-- The contraction of the two blocks at entry (p, q) is the sum over the 512 shared positions. -/
theorem contraction_eq (x0 : FVec Ideal S2048x512 .bf16) (x1 : FVec Ideal S512x1024 .bf16) (p : Fin 2048) (q : Fin 1024) :
    ∑ k : D.contr.Idx, x0 (D.lhsIdx (ix2 p q) k) * x1 (D.rhsIdx (ix2 p q) k)
      = ∑ kk : Fin 512, x0 (ix2 p kk) * x1 (ix2 kk q) := by
  rw [← Equiv.sum_comp (contrEquiv1 D 512 rfl rfl).symm]
  refine Finset.sum_congr rfl fun kk _ => ?_
  rw [lhsIdx_eq p q kk, rhsIdx_eq p q kk]

/-- The accumulating step at entry (p, q): the running entry plus the 512-term sum of products. -/
theorem pay2_apply (xs : Vec Ideal Cert.KernelIdeal.S2048x1024 .f32) (x0 : Vec Ideal Cert.KernelIdeal.S2048x512 .bf16)
    (x1 : Vec Ideal Cert.KernelIdeal.S512x1024 .bf16) (p : Fin 2048) (q : Fin 1024) :
    Cert.KernelIdeal.Gen.k0_pay2 (F := Ideal) xs x0 x1 (ix2 p q) = xs (ix2 p q) + ∑ kk : Fin 512, x0 (ix2 p kk) * x1 (ix2 kk q) := by
  unfold Cert.KernelIdeal.Gen.k0_pay2
  simp only [shapeCast_self]
  rw [addf_apply]
  refine congrArg (xs (ix2 p q) + ·) ?_
  exact (Ideal.matmul_constant_zero_apply D none x0 x1 (ix2 p q)).trans (contraction_eq x0 x1 p q)

/-- The reset step at entry (p, q): the float zero. -/
theorem pay1_apply (p : Fin 2048) (q : Fin 1024) :
    Cert.KernelIdeal.Gen.k0_pay1 (F := Ideal) (ix2 p q) = Ideal.ofBits .f32 0x00000000#32 := by
  unfold Cert.KernelIdeal.Gen.k0_pay1
  simp only [shapeCast_self]
  rfl

end Cert.KernelIdeal.BlockValue

end
-- ==== Proof.KernelAcc.lean ====
/-
  The blocked product, accumulated over the grid.

  Point number n of the grid (n < 128) is (i, j, k) = (n / 32, n / 8 mod 4, n mod 8): the points of one output
  block (i, j) are consecutive, k running 0 … 7. At point n the activation window holds rows 2048·i … of columns
  512·k … of the activation matrix A (8192 × 4096), and the weight window rows 512·k … of columns 1024·j … of the
  weight matrix B (4096 × 4096). After point n the accumulator's entry (p, q) is the sum, over the blocks
  k' ≤ k, of ∑ₖₖ A[2048·i + p, 512·k' + kk] · B[512·k' + kk, 1024·j + q] — by induction on the point: at k = 0 the
  accumulator restarts from zero, otherwise it continues from what the point before left. At k = 7 the output
  block is written with the full sum over the 8 blocks, and those 16 output blocks tile the result matrix.
-/
import proofs.«126825_j56341380989458_2_alg».proof.Proof.Gen.KernelIdeal.Frame
import proofs.«126825_j56341380989458_2_alg».proof.Proof.KernelCases
import proofs.«126825_j56341380989458_2_alg».proof.Proof.BlockValue
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- The printed index maps over the grid: window 0 (activations) is at block (n / 32, n mod 8), window 1 (weight) at
    block (n mod 8, n / 8 mod 4), window 2 (result) at block (n / 32, n / 8 mod 4). -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4 :=
  (by decide +kernel : ∀ t : Fin grid0.N, _)

theorem lt_N (t : Fin cfg0.N) : t.val < 128 := lt_of_lt_of_eq t.isLt (show cfg0.N = 128 from N_0)

/-- Entry (r, k) of the activation matrix as the region finds it (zero outside the matrix). -/
def Aat (c : Dev nD) (r k : ℕ) : EReal :=
  if h : r < 8192 ∧ k < 4096 then (V m c main_v36 : S8192x4096.Idx → EReal) (ix2 ⟨r, h.1⟩ ⟨k, h.2⟩) else 0

/-- Entry (k, o) of the weight matrix as the region finds it (zero outside the matrix). -/
def Bat (c : Dev nD) (k o : ℕ) : EReal :=
  if h : k < 4096 ∧ o < 4096 then (V m c main_v34 : S4096x4096.Idx → EReal) (ix2 ⟨k, h.1⟩ ⟨o, h.2⟩) else 0

/-- The activation window's block at a point, entry by entry. -/
theorem iblk0_apply (c : Dev nD) (t : Fin cfg0.N) (p : Fin 2048) (kk : Fin 512) :
    (iblk m c 0 t : Vec Ideal S2048x512 .bf16) (ix2 p kk) = Aat m c (t.val / 32 * 2048 + p.val) (t.val % 8 * 512 + kk.val) := by
  obtain ⟨e0, e1, -, -, -, -⟩ := idx_facts t
  have hN := lt_N t
  have hp := p.isLt
  have hk := kk.isLt
  unfold Aat
  rw [dif_pos ⟨by omega, by omega⟩]
  unfold iblk
  rw [View.read_apply]
  show V m c main_v36 _ = V m c main_v36 _
  refine congrArg (V m c main_v36) (funext fun a => Fin.ext ?_)
  match a with
  | ⟨0, _⟩ => show win0_0.index t (0 : Fin 2) * 2048 + 1 * p.val = t.val / 32 * 2048 + p.val; rw [e0]; omega
  | ⟨1, _⟩ => show win0_0.index t (1 : Fin 2) * 512 + 1 * kk.val = t.val % 8 * 512 + kk.val; rw [e1]; omega

/-- The weight window's block at a point, entry by entry. -/
theorem iblk1_apply (c : Dev nD) (t : Fin cfg0.N) (kk : Fin 512) (q : Fin 1024) :
    (iblk m c 1 t : Vec Ideal S512x1024 .bf16) (ix2 kk q) = Bat m c (t.val % 8 * 512 + kk.val) (t.val / 8 % 4 * 1024 + q.val) := by
  obtain ⟨-, -, e0, e1, -, -⟩ := idx_facts t
  have hN := lt_N t
  have hq := q.isLt
  have hk := kk.isLt
  unfold Bat
  rw [dif_pos ⟨by omega, by omega⟩]
  unfold iblk
  rw [View.read_apply]
  show V m c main_v34 _ = V m c main_v34 _
  refine congrArg (V m c main_v34) (funext fun a => Fin.ext ?_)
  match a with
  | ⟨0, _⟩ => show win0_1.index t (0 : Fin 2) * 512 + 1 * kk.val = t.val % 8 * 512 + kk.val; rw [e0]; omega
  | ⟨1, _⟩ => show win0_1.index t (1 : Fin 2) * 1024 + 1 * q.val = t.val / 8 % 4 * 1024 + q.val; rw [e1]; omega

/-- Block k' of the contraction for output block (i, j), at entry (p, q). -/
def T (c : Dev nD) (i j k' : ℕ) (p : Fin 2048) (q : Fin 1024) : EReal :=
  ∑ kk : Fin 512, Aat m c (i * 2048 + p.val) (k' * 512 + kk.val) * Bat m c (k' * 512 + kk.val) (j * 1024 + q.val)

/-- One point's arithmetic at an entry: the accumulator plus this point's block of the contraction. -/
theorem step (c : Dev nD) (t : Fin cfg0.N) (xs : Vec Ideal S2048x1024 .f32) (p : Fin 2048) (q : Fin 1024) :
    k0_pay2 (F := Ideal) xs (iblk m c 0 t) (iblk m c 1 t) (ix2 p q)
      = xs (ix2 p q) + T m c (t.val / 32) (t.val / 8 % 4) (t.val % 8) p q := by
  refine (Cert.KernelIdeal.BlockValue.pay2_apply xs (iblk m c 0 t) (iblk m c 1 t) p q).trans ?_
  unfold T
  refine congrArg (xs (ix2 p q) + ·) (Finset.sum_congr rfl fun kk _ => ?_)
  rw [iblk0_apply m c t p kk, iblk1_apply m c t kk q]

/-- The components of a pair that is given by an equation. -/
theorem fst_of_eq {α β : Type} {x : α × β} {a : α} {b : β} (h : x = (a, b)) : x.1 = a := by rw [h]
theorem snd_of_eq {α β : Type} {x : α × β} {a : α} {b : β} (h : x = (a, b)) : x.2 = b := by rw [h]

/-- What the accumulator holds after a point with k = 0: the reset, then this point's block. -/
theorem scratch_first (c : Dev nD) (t : Fin cfg0.N) (h0 : t.val % 8 = 0) :
    (outsAt0 m c t.val t.isLt).2 = k0_pay2 (F := Ideal) (k0_pay1 (F := Ideal)) (iblk m c 0 t) (iblk m c 1 t) :=
  have h1 : ¬t.val % 8 = 7 := by omega
  (snd_of_eq (outsAt0_A m c t h0 h1)).trans
    (Cert.KernelIdeal.Cases.sout_A c (grid0.coords t) (ms0_0 t) (hs0_0 t) (ms0_1 t) (hs0_1 t) (ms0_2 t) (hs0_2 t) scM0_0
      (Memref.isWhole_whole _) ((hcond0_0 t).mpr h0) (fun h => h1 ((hcond0_1 t).mp h)) (iblk m c 0 t) (iblk m c 1 t))

/-- and after a point with k > 0: what the point before left, then this point's block. -/
theorem scratch_next (c : Dev nD) (t : Fin cfg0.N) (h0 : ¬t.val % 8 = 0) :
    (outsAt0 m c t.val t.isLt).2
      = k0_pay2 (F := Ideal) (outsAt0 m c (t.val - 1) (Nat.lt_of_le_of_lt (Nat.sub_le _ _) t.isLt)).2 (iblk m c 0 t) (iblk m c 1 t) := by
  by_cases h1 : t.val % 8 = 7
  · exact (snd_of_eq (outsAt0_C m c t h0 h1)).trans
      (Cert.KernelIdeal.Cases.sout_C c (grid0.coords t) (ms0_0 t) (hs0_0 t) (ms0_1 t) (hs0_1 t) (ms0_2 t) (hs0_2 t) scM0_0
        (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2)
  · exact (snd_of_eq (outsAt0_B m c t h0 h1)).trans
      (Cert.KernelIdeal.Cases.sout_B c (grid0.coords t) (ms0_0 t) (hs0_0 t) (ms0_1 t) (hs0_1 t) (ms0_2 t) (hs0_2 t) scM0_0
        (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2)

/-- The output block after a point with k = 7: the same value as the accumulator. -/
theorem out_last (c : Dev nD) (t : Fin cfg0.N) (h1 : t.val % 8 = 7) :
    (outsAt0 m c t.val t.isLt).1
      = k0_pay2 (F := Ideal) (outsAt0 m c (t.val - 1) (Nat.lt_of_le_of_lt (Nat.sub_le _ _) t.isLt)).2 (iblk m c 0 t) (iblk m c 1 t) :=
  have h0 : ¬t.val % 8 = 0 := by omega
  (fst_of_eq (outsAt0_C m c t h0 h1)).trans
    (Cert.KernelIdeal.Cases.out_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)

/-- THE ACCUMULATOR after point n, entry by entry: the blocks k' ≤ n mod 8 of the contraction for output block
    (n / 32, n / 8 mod 4) — by induction on the point. -/
theorem acc_eq (c : Dev nD) : ∀ (n : ℕ) (hn : n < cfg0.N) (p : Fin 2048) (q : Fin 1024),
    (outsAt0 m c n hn).2 (ix2 p q) = ∑ k' ∈ Finset.range (n % 8 + 1), T m c (n / 32) (n / 8 % 4) k' p q := by
  intro n
  induction n with
  | zero =>
    intro hn p q
    rw [scratch_first m c ⟨0, hn⟩ rfl, step m c ⟨0, hn⟩, Cert.KernelIdeal.BlockValue.pay1_apply, Ideal.ofBits_zero_f32, zero_add]
    simp only [Nat.zero_mod, Nat.zero_div, zero_add, Finset.sum_range_one]
  | succ n ih =>
    intro hn p q
    have hN : n + 1 < 128 := lt_of_lt_of_eq hn (show cfg0.N = 128 from N_0)
    by_cases h0 : (n + 1) % 8 = 0
    · rw [scratch_first m c ⟨n + 1, hn⟩ h0, step m c ⟨n + 1, hn⟩, Cert.KernelIdeal.BlockValue.pay1_apply, Ideal.ofBits_zero_f32, zero_add]
      show T m c ((n + 1) / 32) ((n + 1) / 8 % 4) ((n + 1) % 8) p q = _
      rw [h0, Finset.sum_range_one]
    · rw [scratch_next m c ⟨n + 1, hn⟩ h0, step m c ⟨n + 1, hn⟩]
      show (outsAt0 m c n _).2 (ix2 p q) + T m c ((n + 1) / 32) ((n + 1) / 8 % 4) ((n + 1) % 8) p q = _
      rw [ih (Nat.lt_of_succ_lt hn) p q]
      have e1 : n / 32 = (n + 1) / 32 := by omega
      have e2 : n / 8 % 4 = (n + 1) / 8 % 4 := by omega
      have e3 : n % 8 + 1 = (n + 1) % 8 := by omega
      rw [e1, e2, e3, ← Finset.sum_range_succ]

/-- The full contraction for output entry (r, o) of the 8192 × 4096 result, taken block by block. -/
def G (c : Dev nD) : S8192x4096.Idx → EReal := fun i =>
  ∑ k' ∈ Finset.range 8, ∑ kk : Fin 512, Aat m c (i 0).val (k' * 512 + kk.val) * Bat m c (k' * 512 + kk.val) (i 1).val

/-- THE OUTPUT BLOCK after a point with k = 7, entry by entry: all 8 blocks of the contraction. -/
theorem out_eq (c : Dev nD) (t : Fin cfg0.N) (h1 : t.val % 8 = 7) (p : Fin 2048) (q : Fin 1024) :
    (outsAt0 m c t.val t.isLt).1 (ix2 p q) = ∑ k' ∈ Finset.range 8, T m c (t.val / 32) (t.val / 8 % 4) k' p q := by
  have hN := lt_N t
  rw [out_last m c t h1, step m c t, acc_eq m c (t.val - 1) _ p q]
  have e1 : (t.val - 1) / 32 = t.val / 32 := by omega
  have e2 : (t.val - 1) / 8 % 4 = t.val / 8 % 4 := by omega
  have e3 : (t.val - 1) % 8 + 1 = 7 := by omega
  rw [e1, e2, e3, h1, ← Finset.sum_range_succ]

end Cert.KernelIdeal.Acc

end
-- ==== Proof.KernelFinal.lean ====
/-
  From the output blocks to the result array, and the reshape after the region.

  The result matrix (8192 × 4096) is tiled by 4 × 4 output blocks of 2048 × 1024 entries; block (i, j) is written
  back once, after the point (i, j, 7), with the full contraction at each of its entries. Entry (r, o) lies in block
  (r / 2048, o / 1024), so every entry is written, and the matrix ends as the function G of the two matrices the
  region found. The program then reads the matrix as a [4, 2048, 4096] array: entry (b, s, o) is entry
  (2048·b + s, o) of the matrix, the row-major position being the same.
-/
import proofs.«126825_j56341380989458_2_alg».proof.Proof.KernelAcc
import Idealize.ShloMosaic.Lib.Pipeline.Value
import Idealize.ShloMosaic.Lib.Pipeline.FrameSuffix
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Acc

variable (m : (ℓ : Loc nD τ sig) → Buf (Elt Ideal) ℓ) (ρ : Dev nD → PrngReg)

/-- G at an entry whose coordinates are r and o. -/
theorem G_apply (c : Dev nD) (i : S8192x4096.Idx) (r o : ℕ) (h0 : (i 0).val = r) (h1 : (i 1).val = o) :
    G m c i = ∑ k' ∈ Finset.range 8, ∑ kk : Fin 512, Aat m c r (k' * 512 + kk.val) * Bat m c (k' * 512 + kk.val) o := by
  subst h0; subst h1; rfl

/-- An entry of the matrix is in point t's output block iff each coordinate is in the block's range. -/
theorem mem_blk (t : Fin cfg0.N) (i : S8192x4096.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v37).slice (win0_2.rect t)).set ↔ _
  rw [View.set_slice_whole, Rect.mem_set_unit]
  exact Iff.rfl

/-- What a write-back point writes is its block of G. -/
theorem flushed_eq (c : Dev nD) (t : Fin cfg0.N) (hf : (cfg0.win 2).flush t = true) :
    (dats m 0 c).flushed 2 t = ((cfg0.win 2).blk t).view.read (Elt Ideal) (G m c) := by
  have h1 : t.val % 8 = 7 := (flush0_2 t).mp hf
  obtain ⟨-, -, -, -, e0, e1⟩ := idx_facts t
  have hN := lt_N t
  show (cfg0.win 2).cut (grid0.coords t) ((dats m 0 c).after 2 t) = _
  rw [after0_2]
  funext j
  obtain ⟨p, q, rfl⟩ : ∃ (p : Fin 2048) (q : Fin 1024), j = ix2 p q := ⟨j 0, j 1, eq_ix2 j⟩
  show (outsAt0 m c t.val t.isLt).1 (ix2 p q) = G m c (((cfg0.win 2).blk t).view.emb (ix2 p q))
  rw [out_eq m c t h1 p q]
  have hp := p.isLt
  have hq := q.isLt
  rw [G_apply m c _ (t.val / 32 * 2048 + p.val) (t.val / 8 % 4 * 1024 + q.val)
    (by show win0_2.index t (0 : Fin 2) * 2048 + 1 * p.val = _; rw [e0]; omega)
    (by show win0_2.index t (1 : Fin 2) * 1024 + 1 * q.val = _; rw [e1]; omega)]
  rfl

/-- Every entry is in the block of some write-back point. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  let t : Fin cfg0.N := ⟨(i 0).val / 2048 * 32 + (i 1).val / 1024 * 8 + 7, by rw [hN]; omega⟩
  have htv : t.val = (i 0).val / 2048 * 32 + (i 1).val / 1024 * 8 + 7 := rfl
  obtain ⟨-, -, -, -, e0, e1⟩ := idx_facts t
  refine ⟨t, (flush0_2 t).mpr (by rw [htv]; omega), ?_⟩
  rw [mem_blk]
  intro a
  match a with
  | ⟨0, _⟩ =>
    show win0_2.index t (0 : Fin 2) * 2048 ≤ (i 0).val ∧ (i 0).val < win0_2.index t (0 : Fin 2) * 2048 + 2048
    rw [e0, htv]; omega
  | ⟨1, _⟩ =>
    show win0_2.index t (1 : Fin 2) * 1024 ≤ (i 1).val ∧ (i 1).val < win0_2.index t (1 : Fin 2) * 1024 + 1024
    rw [e1, htv]; omega

/-- THE RESULT MATRIX after the region: G of the two matrices the region found. -/
theorem final (c : Dev nD) : (dats m 0 c).arrAt 2 cfg0.N = G m c :=
  (dats m 0 c).arrAt_eq_of_cover 2 (G m c) (flushed_eq m c) cover

end Cert.KernelIdeal.Final

end
-- ==== Proof.KernelTail.lean ====
/-
  The kernel program after its pipelined region.

  The region leaves its result as a matrix of 8192 rows and 4096 columns; one host operation follows, which
  reads that matrix as an array of 4 by 2048 by 4096 without moving an element: entry (b, s, o) of the array is
  entry (2048·b + s, o) of the matrix, both sitting at position (2048·b + s)·4096 + o of the row-major order.
  No operation, before or after the region, writes one of the four arguments. The operations before the region
  split into the first nine stretches and the tenth, run one after the other.
-/
import Idealize.ShloMosaic.Lib.Pipeline.FrameSuffix
import Idealize.ShloMosaic.Lib.Pipeline.Value
import Idealize.ShloMosaic.Lib.StableHlo.Run
import Idealize.ShloMosaic.Lib.ValueIdx
import proofs.«126825_j56341380989458_2_alg».proof.Proof.Gen.KernelIdeal.Frame

noncomputable section

namespace Cert.KernelIdeal.Tail

open Cert.KernelIdeal Cert.KernelIdeal.Gen
open Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The row 2048·b + s of the result matrix. -/
abbrev row (b : Fin 4) (s : Fin 2048) : Fin 8192 := ⟨b.val * 2048 + s.val, by have := b.isLt; have := s.isLt; omega⟩

/-- The one operation after the region, from any contents V: the array's entry (b, s, o) is the matrix's entry
    (2048·b + s, o). -/
theorem reshape_apply (V : Valuation τ sig (Elt Ideal)) (b : Fin 4) (s : Fin 2048) (o : Fin 4096) :
    (StableHlo.after (hostOps1 (F := Ideal)) V (Proc.devRef .tc main_v38) : S4x2048x4096.Idx → EReal) (ix3 b s o)
      = (V (Proc.devRef .tc main_v37) : S8192x4096.Idx → EReal) (ix2 (row b s) o) := by
  dsimp only [hostOps1]
  after_results
  show shapeCast S4x2048x4096 (V (Proc.devRef .tc main_v37) : S8192x4096.Idx → EReal) _ (ix3 b s o) = _
  refine shapeCast_apply _ _ _ (ix2 (row b s) o) ?_
  refine (Shape.rowMajor_val_two _).trans ((Shape.rowMajor_val_three _).trans ?_).symm
  rfl

/-- The same with the region's arrays put in place of what the buffers held before it: the array's entry is the
    entry of the region's result matrix. -/
theorem tail_apply_of (c : Dev nD) (Vc : Valuation τ sig (Elt Ideal))
    (A : (w : Fin 3) → Buf (Elt Ideal) ((spec0 w).arr.view.loc (c.tc : Thread nD τ)))
    (b : Fin 4) (s : Fin 2048) (o : Fin 4096) :
    (StableHlo.after (hostOps1 (F := Ideal)) (Pipeline.withArrays spec0 c Vc A) (Proc.devRef .tc main_v38) : S4x2048x4096.Idx → EReal) (ix3 b s o)
      = (A 2 : S8192x4096.Idx → EReal) (ix2 (row b s) o) :=
  (reshape_apply _ b s o).trans (congrFun (Pipeline.withArrays_arr spec0 launch0.win.arr_inj c Vc A 2) _)

/-- What the program leaves in its result array, read at an entry. -/
theorem tail_apply (c : Dev nD) (b : Fin 4) (s : Fin 2048) (o : Fin 4096) :
    (Pipeline.afterTail₀ cfgs (dats m) 0 (V0 m) [hostOps1] c main_v38 : S4x2048x4096.Idx → EReal) (ix3 b s o)
      = ((dats m 0 c).arrAt 2 cfg0.N : S8192x4096.Idx → EReal)
          (ix2 ⟨b.val * 2048 + s.val, by have := b.isLt; have := s.isLt; omega⟩ o) :=
  tail_apply_of c (V0 m c) (fun w => (dats m 0 c).arrAt w cfg0.N) b s o

/-- Every weakly fair execution of the kernel program terminates with the result array at what the one
    operation after the region makes of the region's arrays, and with the four arguments as launched. -/
theorem run_tail : θ_run defs (onTc (τ := τ) (main (F := Ideal))) ⟨m, fun _ => 0, ρ⟩ fun r => ∀ c : Dev nD,
      r.2.mem ((c.tc : Thread nD τ).loc main_v38) = Pipeline.afterTail₀ cfgs (dats m) 0 (V0 m) [hostOps1] c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).2 main_v38 (Pipeline.mem_restRefs_of main_v38 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- Running a concatenation is running its second part from where the first leaves the buffers. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- The contents the region finds: the tenth stretch of operations run from where the first nine leave
    the launch contents. -/
theorem V0_split (c : Dev nD) :
    V0 m c = StableHlo.after hostOps0_9 (StableHlo.after (List.flatten [hostOps0, hostOps0_1, hostOps0_2, hostOps0_3, hostOps0_4, hostOps0_5, hostOps0_6, hostOps0_7, hostOps0_8]) (fun b => m (c, b))) := by
  have e : (List.flatten [hostOps0, hostOps0_1, hostOps0_2, hostOps0_3, hostOps0_4, hostOps0_5, hostOps0_6, hostOps0_7, hostOps0_8, hostOps0_9] : List (HloOp τ sig (Elt Ideal)))
      = List.flatten [hostOps0, hostOps0_1, hostOps0_2, hostOps0_3, hostOps0_4, hostOps0_5, hostOps0_6, hostOps0_7, hostOps0_8] ++ hostOps0_9 := by
    simp only [List.flatten_cons, List.flatten_nil, List.append_nil, List.append_assoc]
  show StableHlo.after (List.flatten [hostOps0, hostOps0_1, hostOps0_2, hostOps0_3, hostOps0_4, hostOps0_5, hostOps0_6, hostOps0_7, hostOps0_8, hostOps0_9]) (fun b => m (c, b)) = _
  rw [e, after_append]

/-- The region's left operand, read from that split. -/
theorem V_v36 (c : Dev nD) :
    V m c main_v36 = StableHlo.after hostOps0_9 (StableHlo.after (List.flatten [hostOps0, hostOps0_1, hostOps0_2, hostOps0_3, hostOps0_4, hostOps0_5, hostOps0_6, hostOps0_7, hostOps0_8]) (fun b => m (c, b))) (Proc.devRef .tc main_v36) :=
  congrFun (V0_split m c) (Proc.devRef .tc main_v36)

/-- The region's right operand, likewise. -/
theorem V_v34 (c : Dev nD) :
    V m c main_v34 = StableHlo.after hostOps0_9 (StableHlo.after (List.flatten [hostOps0, hostOps0_1, hostOps0_2, hostOps0_3, hostOps0_4, hostOps0_5, hostOps0_6, hostOps0_7, hostOps0_8]) (fun b => m (c, b))) (Proc.devRef .tc main_v34) :=
  congrFun (V0_split m c) (Proc.devRef .tc main_v34)

end Cert.KernelIdeal.Tail

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.Spec.lean ====
/-
  The mathematics of the sparse linear layer, stated once for both programs.

  A sparse weight matrix of 4096 output rows and 4096 input columns is given by 167772 stored values, each with
  a row index and a column index (32-bit words read as signed integers). Its dense form has, at entry (o, i),
  the sum of the stored values whose row index is o and whose column index is i; a stored value whose indices
  fall outside the matrix contributes to no entry. The layer maps x[b, s, ·] to
      y[b, s, o] = ∑ᵢ x[b, s, i] · weight[o, i].
  Over the extended reals a finite sum depends neither on the order nor on the grouping of its terms, so the sum
  over the 4096 input features may be taken in 8 consecutive blocks of 512 features: that is the only law
  needed to pass from a blocked accumulation to the whole sum, and it needs no finiteness of the entries.
-/
import Idealize.ShloMosaic.Lib.ValueIdx
import Idealize.ShloMosaic.PureOps.Ideal.Laws
import proofs.«126825_j56341380989458_2_alg».proof.Proof.LibTileSums

noncomputable section

open scoped BigOperators

namespace Cert.Spmm

open Idealize.ShloMosaic Idealize.ShloMosaic.ValueIdx

/-- The activations' shape, the stored entries' shape, the dense weight's shape. -/
abbrev SX : Shape := ⟨3, ![4, 2048, 4096]⟩
abbrev SE : Shape := ⟨1, ![167772]⟩
abbrev SW : Shape := ⟨2, ![4096, 4096]⟩

/-- Entry (o, i) of the dense weight: the float zero plus the sum of the stored values whose signed row index
    is o and whose signed column index is i. -/
def weight (vals : SE.Idx → EReal) (rows cols : SE.Idx → BitVec 32) (o i : Fin 4096) : EReal :=
  Ideal.ofBits .f32 0x00000000#32
    + ∑ e ∈ Finset.univ.filter (fun e : Fin 167772 => (rows (ix1 e)).toInt = (o.val : Int) ∧ (cols (ix1 e)).toInt = (i.val : Int)),
        vals (ix1 e)

/-- Entry (b, s, o) of the layer's result for a dense weight w: the sum over the input features. -/
def outAt (x : SX.Idx → EReal) (w : Fin 4096 → Fin 4096 → EReal) (b : Fin 4) (s : Fin 2048) (o : Fin 4096) : EReal :=
  ∑ i : Fin 4096, x (ix3 b s i) * w o i

/-- The layer's result as an array. -/
def out (x : SX.Idx → EReal) (w : Fin 4096 → Fin 4096 → EReal) : SX.Idx → EReal :=
  fun j => outAt x w (j 0 : Fin 4) (j 1 : Fin 2048) (j 2 : Fin 4096)

theorem out_apply (x : SX.Idx → EReal) (w : Fin 4096 → Fin 4096 → EReal) (b : Fin 4) (s : Fin 2048) (o : Fin 4096) :
    out x w (ix3 b s o) = outAt x w b s o := rfl

/-- Feature number 512·k + kk of block k, as a feature. -/
def feat (k : Fin 8) (kk : Fin 512) : Fin 4096 := ⟨512 * k.val + kk.val, by have := k.isLt; have := kk.isLt; omega⟩

/-- The sum over the 4096 input features, taken in 8 consecutive blocks of 512 features. -/
theorem outAt_blocks (x : SX.Idx → EReal) (w : Fin 4096 → Fin 4096 → EReal) (b : Fin 4) (s : Fin 2048) (o : Fin 4096) :
    outAt x w b s o = ∑ k : Fin 8, ∑ kk : Fin 512, x (ix3 b s (feat k kk)) * w o (feat k kk) := by
  unfold outAt
  let g : ℕ → EReal := fun n => if h : n < 4096 then x (ix3 b s ⟨n, h⟩) * w o ⟨n, h⟩ else 0
  have e1 : ∑ i : Fin 4096, x (ix3 b s i) * w o i = ∑ i : Fin 4096, g i.val :=
    Finset.sum_congr rfl fun i _ => by simp only [g, dif_pos i.isLt]
  rw [e1, LibTileSums.sum_tiles 8 512 4096 (by norm_num) g, ← Fin.sum_univ_eq_sum_range (fun k => ∑ j : Fin 512, g (512 * k + j.val)) 8]
  refine Finset.sum_congr rfl fun k _ => Finset.sum_congr rfl fun kk _ => ?_
  have hlt : 512 * k.val + kk.val < 4096 := by have := k.isLt; have := kk.isLt; omega
  simp only [g, dif_pos hlt, feat]

end Cert.Spmm

end
-- ==== Proof.LibPointScatter.lean ====
/-
  An accumulating scatter of single values into a matrix, each value addressed by a pair of indices.

  Update values upd : [E] are summed into the entries of a matrix x : [N0, N1]; the e-th value goes to the entry
  whose row is the first component and whose column is the second component of the e-th row of an integer table
  idx : [E, 2].  Both components are read as signed integers and are NOT clamped: a value whose row or column
  falls outside the matrix lands nowhere.  So update e lands on entry (a, b) exactly when idx[e, 0] = a and
  idx[e, 1] = b as integers, and, at exact arithmetic, entry (a, b) of the scattered sum is the operand's entry
  plus the sum of the update values e with idx[e, 0] = a and idx[e, 1] = b.
-/
import Idealize.ShloMosaic.Lib.ValueIdx
import Idealize.ShloMosaic.PureOps.Ideal.Laws

noncomputable section

open scoped BigOperators

namespace LibPointScatter

open Idealize.ShloMosaic Idealize.ShloMosaic.ValueIdx

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

/-- The dimension numbers of a scatter of single values into a matrix [N0, N1] by index pairs: updates [E], index
    table [E, 2] whose second axis holds the (row, column) pair, no window axes. -/
abbrev pointDims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- Update e lands on entry (a, b) exactly when the pair of indices of e, read signed, is (a, b): the fixed
    dimension numbers. -/
theorem pointDims_resultIdx?_iff {N0 N1 E w : Nat}
    (wf : ScatterDims.WF ⟨2, ![N0, N1]⟩ ⟨2, ![E, 2]⟩ ⟨1, ![E]⟩ [] [0, 1] [0, 1] 1)
    (idx : IVec ⟨2, ![E, 2]⟩ w) (e : Fin E) (a : Fin N0) (b : Fin N1) :
    (pointDims N0 N1 E wf).resultIdx? (ix1 e) idx = some (ix2 a b)
      ↔ (idx (ix2 e (0 : Fin 2))).toInt = (a.val : Int) ∧ (idx (ix2 e (1 : Fin 2))).toInt = (b.val : Int) := by
  have ha : a.val < N0 := a.isLt
  have hb : b.val < N1 := b.isLt
  have hm0 : (0 : Fin 2) ∈ (pointDims N0 N1 E wf).scatterDimsToOperandDims := List.mem_cons_self
  have hm1 : (1 : Fin 2) ∈ (pointDims N0 N1 E wf).scatterDimsToOperandDims :=
    List.mem_cons_of_mem _ List.mem_cons_self
  have hstart0 : (pointDims N0 N1 E wf).start (ix1 e) idx 0 = (idx (ix2 e (0 : Fin 2))).toInt := by
    unfold ScatterDims.start
    rw [dif_pos hm0]
    have hsi : (pointDims N0 N1 E wf).siIdx (ix1 e) ⟨List.idxOf (0 : Fin 2) (pointDims N0 N1 E wf).scatterDimsToOperandDims,
        List.idxOf_lt_length_iff.2 hm0⟩ = ix2 e (0 : Fin 2) := by
      funext c; refine Fin.ext ?_
      match c with
      | ⟨0, _⟩ => rfl
      | ⟨1, _⟩ => rfl
    rw [hsi]
  have hstart1 : (pointDims N0 N1 E wf).start (ix1 e) idx 1 = (idx (ix2 e (1 : Fin 2))).toInt := by
    unfold ScatterDims.start
    rw [dif_pos hm1]
    have hsi : (pointDims N0 N1 E wf).siIdx (ix1 e) ⟨List.idxOf (1 : Fin 2) (pointDims N0 N1 E wf).scatterDimsToOperandDims,
        List.idxOf_lt_length_iff.2 hm1⟩ = ix2 e (1 : Fin 2) := by
      funext c; refine Fin.ext ?_
      match c with
      | ⟨0, _⟩ => rfl
      | ⟨1, _⟩ => rfl
    rw [hsi]
  have hwin : ∀ c : Fin 2, (pointDims N0 N1 E wf).window (ix1 e) c = 0 := by
    intro c
    unfold ScatterDims.window
    have hk : c ∉ (pointDims N0 N1 E wf).sKept := fun hc => List.not_mem_nil (show c ∈ ([] : List (Fin 2)) from hc)
    rw [dif_neg hk]
  unfold ScatterDims.resultIdx?
  split
  · rename_i h
    rw [Option.some_inj]
    constructor
    · intro he
      have h0 := congrArg (fun f => (f 0).val) he
      have h1 := congrArg (fun f => (f 1).val) he
      have hh0 := h 0
      have hh1 := h 1
      simp only [hstart0, hwin] at h0 hh0
      simp only [hstart1, hwin] at h1 hh1
      have e0 : ((ix2 a b : (⟨2, ![N0, N1]⟩ : Shape).Idx) 0).val = a.val := rfl
      have e1 : ((ix2 a b : (⟨2, ![N0, N1]⟩ : Shape).Idx) 1).val = b.val := rfl
      constructor
      · omega
      · omega
    · rintro ⟨he0, he1⟩
      funext c
      refine Fin.ext ?_
      match c with
      | ⟨0, _⟩ =>
        show ((pointDims N0 N1 E wf).start (ix1 e) idx 0 + ((pointDims N0 N1 E wf).window (ix1 e) 0 : ℕ)).toNat = a.val
        rw [hstart0, hwin]
        omega
      | ⟨1, _⟩ =>
        show ((pointDims N0 N1 E wf).start (ix1 e) idx 1 + ((pointDims N0 N1 E wf).window (ix1 e) 1 : ℕ)).toNat = b.val
        rw [hstart1, hwin]
        omega
  · rename_i h
    constructor
    · intro he; exact absurd he (by simp)
    · rintro ⟨he0, he1⟩
      exfalso
      apply h
      intro c
      match c with
      | ⟨0, _⟩ =>
        show 0 ≤ (pointDims N0 N1 E wf).start (ix1 e) idx 0 + ((pointDims N0 N1 E wf).window (ix1 e) 0 : ℕ)
          ∧ (pointDims N0 N1 E wf).start (ix1 e) idx 0 + ((pointDims N0 N1 E wf).window (ix1 e) 0 : ℕ) < ((N0 : ℕ) : ℤ)
        rw [hstart0, hwin]
        omega
      | ⟨1, _⟩ =>
        show 0 ≤ (pointDims N0 N1 E wf).start (ix1 e) idx 1 + ((pointDims N0 N1 E wf).window (ix1 e) 1 : ℕ)
          ∧ (pointDims N0 N1 E wf).start (ix1 e) idx 1 + ((pointDims N0 N1 E wf).window (ix1 e) 1 : ℕ) < ((N1 : ℕ) : ℤ)
        rw [hstart1, hwin]
        omega

/-- Update e lands on entry (a, b) exactly when the pair of indices of e, read signed, is (a, b): any dimension
    numbers with the four lists of a scatter of single values by index pairs. -/
theorem resultIdx?_eq_some_iff {N0 N1 E w : Nat} (d : ScatterDims ⟨2, ![N0, N1]⟩ ⟨2, ![E, 2]⟩ ⟨1, ![E]⟩)
    (h1 : d.updateWindowDims = []) (h2 : d.insertedWindowDims = [0, 1]) (h3 : d.scatterDimsToOperandDims = [0, 1])
    (h4 : d.indexVectorDim = 1) (idx : IVec ⟨2, ![E, 2]⟩ w) (e : Fin E) (a : Fin N0) (b : Fin N1) :
    d.resultIdx? (ix1 e) idx = some (ix2 a b)
      ↔ (idx (ix2 e (0 : Fin 2))).toInt = (a.val : Int) ∧ (idx (ix2 e (1 : Fin 2))).toInt = (b.val : Int) := by
  obtain ⟨uw, iw, sd, iv, wf⟩ := d
  dsimp only at h1 h2 h3 h4
  subst h1 h2 h3 h4
  exact pointDims_resultIdx?_iff wf idx e a b

/-- At exact arithmetic, entry (a, b) of the scattered sum is the operand's entry plus the sum of the update
    values whose pair of indices, read signed, is (a, b). -/
theorem scatterAdd_apply {N0 N1 E w : Nat} {φ : FTy} (d : ScatterDims ⟨2, ![N0, N1]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (x : FVec Ideal ⟨2, ![N0, N1]⟩ φ) (idx : IVec ⟨2, ![E, 2]⟩ w) (upd : FVec Ideal ⟨1, ![E]⟩ φ) (a : Fin N0) (b : Fin N1) :
    Host.scatterAdd (F := Ideal) d x idx upd (ix2 a b)
      = x (ix2 a b) + ∑ e ∈ Finset.univ.filter (fun e : Fin E =>
          (idx (ix2 e (0 : Fin 2))).toInt = (a.val : Int) ∧ (idx (ix2 e (1 : Fin 2))).toInt = (b.val : Int)), upd (ix1 e) := by
  show Ideal.hostScatterAdd d x idx upd (ix2 a b) = _
  unfold Ideal.hostScatterAdd
  refine congrArg (fun t => x (ix2 a b) + t) ?_
  rw [Finset.sum_filter, Finset.sum_filter]
  refine Fintype.sum_equiv idxEquiv1 _ _ (fun j => ?_)
  obtain ⟨e, rfl⟩ : ∃ e, j = ix1 e := ⟨j 0, eq_ix1 j⟩
  exact if_congr (resultIdx?_eq_some_iff d h1 h2 h3 h4 idx e a b) rfl rfl

end LibPointScatter

end
-- ==== Proof.ScatterValue.lean ====
/-
  The dense weight that each program builds, read at one entry.

  Both programs build the dense 4096 x 4096 weight in the same way: the two vectors of 167772 indices are each seen
  as a column, the two columns are put side by side into a table of 167772 index pairs, and the 167772 stored
  values are summed into a zero matrix, each value at the entry its pair names (pairs read as signed integers, a
  pair outside the matrix contributing nothing).  Entry (a, b) of the result is therefore the float zero plus the
  sum of the stored values whose first index is a and whose second index is b.

  The reference puts the row indices first and the column indices second, so its entry (o, i) is the weight's
  entry (o, i).  The kernel puts the column indices first and the row indices second: it builds the transposed
  matrix, whose entry (i, o) is the weight's entry (o, i); the two conditions "row index = o" and
  "column index = i" merely appear in the other order.
-/
import Idealize.ShloMosaic.Lib.ValueIdx
import Idealize.ShloMosaic.Lib.Pipeline.Value
import Idealize.ShloMosaic.PureOps.Ideal.Laws
import proofs.«126825_j56341380989458_2_alg».proof.KernelIdeal
import proofs.«126825_j56341380989458_2_alg».proof.ReferenceIdeal
import proofs.«126825_j56341380989458_2_alg».proof.Proof.Spec
import proofs.«126825_j56341380989458_2_alg».proof.Proof.LibPointScatter

noncomputable section

open scoped BigOperators

namespace Cert.ReferenceIdeal.ScatterValue

open Idealize.ShloMosaic Idealize.ShloMosaic.ValueIdx
open Cert.ReferenceIdeal Cert.ReferenceIdeal.Facts₀

variable [Cert.ReferenceIdeal.Facts]

/-- The zero matrix the values are summed into: the scalar zero at every entry. -/
theorem zeros_apply (o i : Fin 4096) :
    broadcastInDim S4096x4096 ![] bcast_S_S4096x4096 (constant (F := Ideal) S_ .f32 0x00000000#32) (ix2 o i)
      = Ideal.ofBits .f32 0x00000000#32 :=
  broadcastInDim_apply ![] bcast_S_S4096x4096 (constant (F := Ideal) S_ .f32 0x00000000#32) (ix2 o i) ix0 (fun a => a.elim0)

/-- An index vector seen as a column, read at row e. -/
theorem column_apply (A : IVec S167772 32) (e : Fin 167772) :
    broadcastInDim S167772x1 ![0] bcast_S167772_S167772x1_0 A (ix2 e (0 : Fin 1)) = A (ix1 e) :=
  broadcastInDim_apply ![0] bcast_S167772_S167772x1_0 A (ix2 e (0 : Fin 1)) (ix1 e)
    (fun a => match a with | ⟨0, _⟩ => rfl)

/-- The table of index pairs: its first column is the first index vector. -/
theorem pairs_apply_zero (A B : IVec S167772 32) (e : Fin 167772) :
    concatenate S167772x2 1 [⟨S167772x1, broadcastInDim S167772x1 ![0] bcast_S167772_S167772x1_0 A⟩,
      ⟨S167772x1, broadcastInDim S167772x1 ![0] bcast_S167772_S167772x1_0 B⟩]
      concatenates_S167772x1_S167772x1_S167772x2_d1 (ix2 e (0 : Fin 2)) = A (ix1 e) :=
  (concatenate_pair_apply_left (1 : Fin S167772x2.rank) _ _ concatenates_S167772x1_S167772x1_S167772x2_d1
    (ix2 e (0 : Fin 2)) rfl (ix2 e (0 : Fin 1)) (fun b => match b with | ⟨0, _⟩ => rfl | ⟨1, _⟩ => rfl)).trans
    (column_apply A e)

/-- The table of index pairs: its second column is the second index vector. -/
theorem pairs_apply_one (A B : IVec S167772 32) (e : Fin 167772) :
    concatenate S167772x2 1 [⟨S167772x1, broadcastInDim S167772x1 ![0] bcast_S167772_S167772x1_0 A⟩,
      ⟨S167772x1, broadcastInDim S167772x1 ![0] bcast_S167772_S167772x1_0 B⟩]
      concatenates_S167772x1_S167772x1_S167772x2_d1 (ix2 e (1 : Fin 2)) = B (ix1 e) :=
  (concatenate_pair_apply_right (1 : Fin S167772x2.rank) _ _ concatenates_S167772x1_S167772x1_S167772x2_d1
    (ix2 e (1 : Fin 2)) rfl rfl (ix2 e (0 : Fin 1))
    (fun b => match b with | ⟨0, _⟩ => fun _ => rfl | ⟨1, _⟩ => fun h => absurd rfl h) rfl).trans
    (column_apply B e)

/-- The reference's dense weight at entry (o, i). -/
theorem weight_ref (vals : FVec Ideal S167772 .f32) (R C : IVec S167772 32) (o i : Fin 4096) :
    Host.scatterAdd (F := Ideal) scatter_S4096x4096_S167772x2_S167772_n_01_01_1
      (broadcastInDim S4096x4096 ![] bcast_S_S4096x4096 (constant S_ .f32 0x00000000#32))
      (concatenate S167772x2 1 [⟨S167772x1, broadcastInDim S167772x1 ![0] bcast_S167772_S167772x1_0 R⟩,
        ⟨S167772x1, broadcastInDim S167772x1 ![0] bcast_S167772_S167772x1_0 C⟩]
        concatenates_S167772x1_S167772x1_S167772x2_d1) vals (ix2 o i) = Cert.Spmm.weight vals R C o i := by
  refine (LibPointScatter.scatterAdd_apply scatter_S4096x4096_S167772x2_S167772_n_01_01_1 rfl rfl rfl rfl _ _ vals o i).trans ?_
  unfold Cert.Spmm.weight
  rw [zeros_apply o i]
  refine congrArg (fun t => Ideal.ofBits .f32 0x00000000#32 + t) ?_
  refine Finset.sum_congr (Finset.filter_congr fun e _ => ?_) fun _ _ => rfl
  rw [pairs_apply_zero R C e, pairs_apply_one R C e]

end Cert.ReferenceIdeal.ScatterValue

namespace Cert.KernelIdeal.ScatterValue

open Idealize.ShloMosaic Idealize.ShloMosaic.ValueIdx
open Cert.KernelIdeal Cert.KernelIdeal.Facts₀

variable [Cert.KernelIdeal.Facts]

/-- The zero matrix the values are summed into: the scalar zero at every entry. -/
theorem zeros_apply (o i : Fin 4096) :
    broadcastInDim S4096x4096 ![] bcast_S_S4096x4096 (constant (F := Ideal) S_ .f32 0x00000000#32) (ix2 o i)
      = Ideal.ofBits .f32 0x00000000#32 :=
  broadcastInDim_apply ![] bcast_S_S4096x4096 (constant (F := Ideal) S_ .f32 0x00000000#32) (ix2 o i) ix0 (fun a => a.elim0)

/-- An index vector seen as a column, read at row e. -/
theorem column_apply (A : IVec S167772 32) (e : Fin 167772) :
    broadcastInDim S167772x1 ![0] bcast_S167772_S167772x1_0 A (ix2 e (0 : Fin 1)) = A (ix1 e) :=
  broadcastInDim_apply ![0] bcast_S167772_S167772x1_0 A (ix2 e (0 : Fin 1)) (ix1 e)
    (fun a => match a with | ⟨0, _⟩ => rfl)

/-- The table of index pairs: its first column is the first index vector. -/
theorem pairs_apply_zero (A B : IVec S167772 32) (e : Fin 167772) :
    concatenate S167772x2 1 [⟨S167772x1, broadcastInDim S167772x1 ![0] bcast_S167772_S167772x1_0 A⟩,
      ⟨S167772x1, broadcastInDim S167772x1 ![0] bcast_S167772_S167772x1_0 B⟩]
      concatenates_S167772x1_S167772x1_S167772x2_d1 (ix2 e (0 : Fin 2)) = A (ix1 e) :=
  (concatenate_pair_apply_left (1 : Fin S167772x2.rank) _ _ concatenates_S167772x1_S167772x1_S167772x2_d1
    (ix2 e (0 : Fin 2)) rfl (ix2 e (0 : Fin 1)) (fun b => match b with | ⟨0, _⟩ => rfl | ⟨1, _⟩ => rfl)).trans
    (column_apply A e)

/-- The table of index pairs: its second column is the second index vector. -/
theorem pairs_apply_one (A B : IVec S167772 32) (e : Fin 167772) :
    concatenate S167772x2 1 [⟨S167772x1, broadcastInDim S167772x1 ![0] bcast_S167772_S167772x1_0 A⟩,
      ⟨S167772x1, broadcastInDim S167772x1 ![0] bcast_S167772_S167772x1_0 B⟩]
      concatenates_S167772x1_S167772x1_S167772x2_d1 (ix2 e (1 : Fin 2)) = B (ix1 e) :=
  (concatenate_pair_apply_right (1 : Fin S167772x2.rank) _ _ concatenates_S167772x1_S167772x1_S167772x2_d1
    (ix2 e (1 : Fin 2)) rfl rfl (ix2 e (0 : Fin 1))
    (fun b => match b with | ⟨0, _⟩ => fun _ => rfl | ⟨1, _⟩ => fun h => absurd rfl h) rfl).trans
    (column_apply B e)

/-- The kernel's dense weight is built transposed: its entry (i, o) is the weight's entry (o, i). -/
theorem weight_ker (vals : FVec Ideal S167772 .f32) (R C : IVec S167772 32) (i o : Fin 4096) :
    Host.scatterAdd (F := Ideal) scatter_S4096x4096_S167772x2_S167772_n_01_01_1
      (broadcastInDim S4096x4096 ![] bcast_S_S4096x4096 (constant S_ .f32 0x00000000#32))
      (concatenate S167772x2 1 [⟨S167772x1, broadcastInDim S167772x1 ![0] bcast_S167772_S167772x1_0 C⟩,
        ⟨S167772x1, broadcastInDim S167772x1 ![0] bcast_S167772_S167772x1_0 R⟩]
        concatenates_S167772x1_S167772x1_S167772x2_d1) vals (ix2 i o) = Cert.Spmm.weight vals R C o i := by
  refine (LibPointScatter.scatterAdd_apply scatter_S4096x4096_S167772x2_S167772_n_01_01_1 rfl rfl rfl rfl _ _ vals i o).trans ?_
  unfold Cert.Spmm.weight
  rw [zeros_apply i o]
  refine congrArg (fun t => Ideal.ofBits .f32 0x00000000#32 + t) ?_
  refine Finset.sum_congr (Finset.filter_congr fun e _ => ?_) fun _ _ => rfl
  rw [pairs_apply_zero C R e, pairs_apply_one C R e]
  exact and_comm

end Cert.KernelIdeal.ScatterValue

end
-- ==== Proof.KernelHost.lean ====
/-
  What the kernel program's last host operations hand to the matrix product.

  Before the product the kernel program does, on the host, what the reference does, with the two index vectors in
  the other order: a negative index is shifted up by 4096 (in the column indices it is given and in the row
  numbers it has computed), the two vectors are paired as (column, row), and the stored values are summed into a
  zero 4096 x 4096 matrix at those pairs.  The matrix is therefore the TRANSPOSE of the layer's weight: its entry
  (i, o) is the weight's entry (o, i).  The change of float format that follows is the identity on exact values.

  The activations [4, 2048, 4096] are reshaped to [8192, 4096]: a reshape keeps every element's row-major
  position, and position ((b · 2048 + s) · 4096 + k) is position (r · 4096 + k) with r = b · 2048 + s, so row r
  of the reshaped array is row (r / 2048, r % 2048) of the input.

  All statements are about an arbitrary state W of the buffers before these operations.
-/
import proofs.«126825_j56341380989458_2_alg».proof.Proof.Gen.KernelIdeal.Frame
import proofs.«126825_j56341380989458_2_alg».proof.Proof.ScatterValue
import proofs.«126825_j56341380989458_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostValue

open Idealize.ShloMosaic Idealize.ShloMosaic.ValueIdx Idealize.ShloMosaic.TcCoe Idealize.SL.Sem
open Cert.KernelIdeal Cert.KernelIdeal.Gen

/-- The column index of every stored value, as the last stretch of host operations leaves it. -/
abbrev C (W : Valuation τ sig (Elt Ideal)) : IVec S167772 32 := StableHlo.after hostOps0_9 W (Proc.devRef .tc main_v24)

/-- The row index of every stored value, as the last stretch of host operations leaves it. -/
abbrev R (W : Valuation τ sig (Elt Ideal)) : IVec S167772 32 := StableHlo.after hostOps0_9 W (Proc.devRef .tc main_v29)

/-- Two arrays put side by side along an axis: the concatenation of a pair, with the two arrays as plain arguments. -/
def pair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concatenate_eq_pair {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = pair t a s₁ s₂ h x₁ x₂ := rfl

/-- The row indices are the computed row numbers with a negative one shifted up by 4096. -/
theorem rows_of (W : Valuation τ sig (Elt Ideal)) :
    R W = select (cmpi .slt (W (Proc.devRef .tc main_v18) : IVec S167772 32) (broadcastInDim S167772 ![] bcast_S_S167772 (constantI S_ 32 0#32)))
      (addi (W (Proc.devRef .tc main_v18) : IVec S167772 32) (broadcastInDim S167772 ![] bcast_S_S167772 (constantI S_ 32 4096#32)))
      (W (Proc.devRef .tc main_v18)) := by
  show StableHlo.after hostOps0_9 W (Proc.devRef .tc main_v29) = _
  simp only [hostOps0_9]
  after_results_simp

/-- The column indices are the given ones with a negative one shifted up by 4096. -/
theorem cols_of (W : Valuation τ sig (Elt Ideal)) :
    C W = select (cmpi .slt (W (Proc.devRef .tc main_arg3) : IVec S167772 32) (broadcastInDim S167772 ![] bcast_S_S167772 (constantI S_ 32 0#32)))
      (addi (W (Proc.devRef .tc main_arg3) : IVec S167772 32) (broadcastInDim S167772 ![] bcast_S_S167772 (constantI S_ 32 4096#32)))
      (W (Proc.devRef .tc main_arg3)) := by
  show StableHlo.after hostOps0_9 W (Proc.devRef .tc main_v24) = _
  simp only [hostOps0_9]
  after_results_simp

/-- The dense weight the kernel is given, before rounding: the stored values summed into a zero matrix at the
    (column, row) pairs. -/
theorem wt_eq (W : Valuation τ sig (Elt Ideal)) :
    (StableHlo.after hostOps0_9 W (Proc.devRef .tc main_v34) : FVec Ideal S4096x4096 .bf16)
      = truncf .bf16 (Host.scatterAdd (F := Ideal) scatter_S4096x4096_S167772x2_S167772_n_01_01_1
          (broadcastInDim S4096x4096 ![] bcast_S_S4096x4096 (constant S_ .f32 0x00000000#32))
          (concatenate S167772x2 1 [⟨S167772x1, broadcastInDim S167772x1 ![0] bcast_S167772_S167772x1_0 (C W)⟩,
            ⟨S167772x1, broadcastInDim S167772x1 ![0] bcast_S167772_S167772x1_0 (R W)⟩]
            concatenates_S167772x1_S167772x1_S167772x2_d1)
          (W (Proc.devRef .tc main_arg1))) bitsLt_bf16_f32 := by
  rw [rows_of W, cols_of W]
  simp (disch := decide) only [hostOps0_9, StableHlo.after_cons, StableHlo.after_nil, concatenate_eq_pair,
    StableHlo.nullary_result', StableHlo.unary_result', StableHlo.binary_result', StableHlo.ternary_result', StableHlo.reshape_result',
    StableHlo.nullary_result_ne', StableHlo.unary_result_ne', StableHlo.binary_result_ne', StableHlo.ternary_result_ne',
    StableHlo.reshape_result_ne']

/-- Entry (i, o) of the matrix the kernel is given is entry (o, i) of the weight. -/
theorem wt_apply (W : Valuation τ sig (Elt Ideal)) (i o : Fin 4096) :
    (StableHlo.after hostOps0_9 W (Proc.devRef .tc main_v34) : FVec Ideal S4096x4096 .bf16) (ix2 i o)
      = Cert.Spmm.weight (W (Proc.devRef .tc main_arg1)) (R W) (C W) o i := by
  refine (congrFun (wt_eq W) (ix2 i o)).trans ?_
  refine (truncf_apply (ψ := .bf16) _ bitsLt_bf16_f32 (ix2 i o)).trans ?_
  exact Cert.KernelIdeal.ScatterValue.weight_ker (W (Proc.devRef .tc main_arg1)) (R W) (C W) i o

/-- The activations the kernel is given: the input with its first two axes merged. -/
theorem xflat_eq (W : Valuation τ sig (Elt Ideal)) :
    (StableHlo.after hostOps0_9 W (Proc.devRef .tc main_v36) : FVec Ideal S8192x4096 .bf16)
      = truncf (F := Ideal) .bf16 (shapeCast S8192x4096 (W (Proc.devRef .tc main_arg0) : FVec Ideal S4x2048x4096 .f32)
          shapeCasts_S4x2048x4096_S8192x4096 : FVec Ideal S8192x4096 .f32) bitsLt_bf16_f32 := by
  simp only [hostOps0_9]
  after_results_simp
  rfl

/-- Row r of the merged activations is row (r / 2048, r % 2048) of the input. -/
theorem xflat_apply (W : Valuation τ sig (Elt Ideal)) (r : Fin 8192) (k : Fin 4096) :
    (StableHlo.after hostOps0_9 W (Proc.devRef .tc main_v36) : FVec Ideal S8192x4096 .bf16) (ix2 r k)
      = (W (Proc.devRef .tc main_arg0) : FVec Ideal S4x2048x4096 .f32)
          (ix3 (⟨r.val / 2048, by have := r.isLt; omega⟩ : Fin 4) (⟨r.val % 2048, by omega⟩ : Fin 2048) k) := by
  refine (congrFun (xflat_eq W) (ix2 r k)).trans ?_
  refine shapeCast_apply (W (Proc.devRef .tc main_arg0) : FVec Ideal S4x2048x4096 .f32) shapeCasts_S4x2048x4096_S8192x4096
    (ix2 r k) (ix3 (⟨r.val / 2048, by have := r.isLt; omega⟩ : Fin 4) (⟨r.val % 2048, by omega⟩ : Fin 2048) k) ?_
  show (S4x2048x4096.rowMajor (ix3 (⟨r.val / 2048, by have := r.isLt; omega⟩ : Fin 4) (⟨r.val % 2048, by omega⟩ : Fin 2048) k)).val
    = (S8192x4096.rowMajor (ix2 r k)).val
  rw [Shape.rowMajor_val_three, Shape.rowMajor_val_two]
  show (r.val / 2048 * 2048 + r.val % 2048) * 4096 + k.val = r.val * 4096 + k.val
  omega

end Cert.KernelIdeal.HostValue

end
-- ==== Proof.KernelValue.lean ====
/-
  The kernel program's result as the layer's specification.

  Before the region the program flattens the activations x[b, s, ·] to the rows 2048·b + s of an 8192 × 4096 matrix
  (a change of float format being the identity on the extended reals) and builds the weight TRANSPOSED: it adds
  the stored values into a zero matrix at (column, row), so entry (k, o) of the matrix the region finds is the
  dense weight's entry (o, k). The region leaves, at (2048·b + s, o), the contraction over the 4096 features
  taken in 8 blocks of 512, which is the whole sum ∑ᵢ x[b, s, i] · weight[o, i]; the final reshape puts it at
  (b, s, o).
-/
import proofs.«126825_j56341380989458_2_alg».proof.Proof.KernelFinal
import proofs.«126825_j56341380989458_2_alg».proof.Proof.KernelTail
import proofs.«126825_j56341380989458_2_alg».proof.Proof.KernelHost
import proofs.«126825_j56341380989458_2_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Acc

variable (m : (ℓ : Loc nD τ sig) → Buf (Elt Ideal) ℓ) (ρ : Dev nD → PrngReg)

/-- The host operations that end with the row number of every stored value. -/
abbrev preK : List (HloOp τ sig (Elt Ideal)) := List.flatten [hostOps0, hostOps0_1, hostOps0_2, hostOps0_3, hostOps0_4, hostOps0_5, hostOps0_6, hostOps0_7, hostOps0_8]

/-- The buffers after them, on core c. -/
abbrev W0 (c : Dev nD) : Valuation τ sig (Elt Ideal) := StableHlo.after preK (fun b => m (c, b))

/-- The row and column index of every stored value, negative entries shifted by 4096, as the program pairs them. -/
abbrev rowsK (c : Dev nD) : IVec S167772 32 := Cert.KernelIdeal.HostValue.R (W0 m c)
abbrev colsK (c : Dev nD) : IVec S167772 32 := Cert.KernelIdeal.HostValue.C (W0 m c)

/-- The last host operations before the region write neither the activations nor the stored values. -/
theorem h9_kept0 (W : Valuation τ sig (Elt Ideal)) :
    StableHlo.after hostOps0_9 W (Proc.devRef .tc main_arg0) = W (Proc.devRef .tc main_arg0) := by
  after_results
theorem h9_kept1 (W : Valuation τ sig (Elt Ideal)) :
    StableHlo.after hostOps0_9 W (Proc.devRef .tc main_arg1) = W (Proc.devRef .tc main_arg1) := by
  after_results

/-- So what they start from holds the activations and the stored values as launched. -/
theorem W0_arg0 (c : Dev nD) : W0 m c (Proc.devRef .tc main_arg0) = m ((c : Thread nD τ).loc main_arg0) := by
  have h := V_main_arg0 m c
  rw [show V m c main_arg0 = V0 m c (Proc.devRef .tc main_arg0) from rfl, Cert.KernelIdeal.Tail.V0_split m c, h9_kept0] at h
  exact h
theorem W0_arg1 (c : Dev nD) : W0 m c (Proc.devRef .tc main_arg1) = m ((c : Thread nD τ).loc main_arg1) := by
  have h := V_main_arg1 m c
  rw [show V m c main_arg1 = V0 m c (Proc.devRef .tc main_arg1) from rfl, Cert.KernelIdeal.Tail.V0_split m c, h9_kept1] at h
  exact h

/-- Row 2048·b + s of the matrix the region finds is x[b, s, ·]. -/
theorem Aat_eq (c : Dev nD) (b : Fin 4) (s : Fin 2048) (k : Fin 4096) :
    Aat m c (b.val * 2048 + s.val) k.val = (m ((c : Thread nD τ).loc main_arg0) : S4x2048x4096.Idx → EReal) (ix3 b s k) := by
  have hb := b.isLt
  have hs := s.isLt
  unfold Aat
  rw [dif_pos ⟨by omega, k.isLt⟩, Cert.KernelIdeal.Tail.V_v36 m c]
  refine (Cert.KernelIdeal.HostValue.xflat_apply (W0 m c) ⟨b.val * 2048 + s.val, by omega⟩ k).trans ?_
  rw [W0_arg0 m c]
  refine congrArg _ (funext fun a => Fin.ext ?_)
  match a with
  | ⟨0, _⟩ => show (b.val * 2048 + s.val) / 2048 = b.val; omega
  | ⟨1, _⟩ => show (b.val * 2048 + s.val) % 2048 = s.val; omega
  | ⟨2, _⟩ => rfl

/-- Entry (k, o) of the matrix the region finds is the dense weight's entry (o, k). -/
theorem Bat_eq (c : Dev nD) (k o : Fin 4096) :
    Bat m c k.val o.val = Cert.Spmm.weight (m ((c : Thread nD τ).loc main_arg1)) (rowsK m c) (colsK m c) o k := by
  unfold Bat
  rw [dif_pos ⟨k.isLt, o.isLt⟩, Cert.KernelIdeal.Tail.V_v34 m c]
  refine (Cert.KernelIdeal.HostValue.wt_apply (W0 m c) k o).trans ?_
  rw [W0_arg1 m c]

/-- The layer's result for this program's arguments. -/
abbrev result (c : Dev nD) : Cert.Spmm.SX.Idx → EReal :=
  Cert.Spmm.out (m ((c : Thread nD τ).loc main_arg0))
    (Cert.Spmm.weight (m ((c : Thread nD τ).loc main_arg1)) (rowsK m c) (colsK m c))

/-- What the host line after the region leaves is that result. -/
theorem tail_eq (c : Dev nD) :
    (Pipeline.afterTail₀ cfgs (dats m) 0 (V0 m) [hostOps1] c main_v38 : S4x2048x4096.Idx → EReal) = result m c := by
  funext j
  obtain ⟨b, s, o, rfl⟩ : ∃ (b : Fin 4) (s : Fin 2048) (o : Fin 4096), j = ix3 b s o := ⟨j 0, j 1, j 2, eq_ix3 j⟩
  rw [Cert.KernelIdeal.Tail.tail_apply m c b s o, Cert.KernelIdeal.Final.final m c,
    Cert.KernelIdeal.Final.G_apply m c _ (b.val * 2048 + s.val) o.val rfl rfl]
  show _ = Cert.Spmm.out _ _ (ix3 b s o)
  rw [Cert.Spmm.out_apply, Cert.Spmm.outAt_blocks,
    ← Fin.sum_univ_eq_sum_range (fun k' => ∑ kk : Fin 512, Aat m c (b.val * 2048 + s.val) (k' * 512 + kk.val) * Bat m c (k' * 512 + kk.val) o.val) 8]
  refine Finset.sum_congr rfl fun k _ => Finset.sum_congr rfl fun kk _ => ?_
  have e : k.val * 512 + kk.val = (Cert.Spmm.feat k kk).val := by show _ = 512 * k.val + kk.val; omega
  rw [e, Aat_eq m c b s (Cert.Spmm.feat k kk), Bat_eq m c (Cert.Spmm.feat k kk) o]

/-- THE KERNEL PROGRAM'S RUN: every weakly fair execution terminates with the result array at the layer's result
    and the arguments unchanged. -/
theorem run : θ_run defs (onTc (τ := τ) (main (F := Ideal))) ⟨m, fun _ => 0, ρ⟩ fun r => ∀ c : Dev nD,
      (r.2.mem ((c.tc : Thread nD τ).loc main_v38) : S4x2048x4096.Idx → EReal) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (tail_eq m c), (h c).2⟩) (Cert.KernelIdeal.Tail.run_tail m ρ)

end Cert.KernelIdeal.Value

end
-- ==== Proof.RefRun.lean ====
/-
  The reference program's run, read back.

  The reference computes, on the host, the row number of every stored value (from the row offsets: counts,
  running sums and a lookup — integer operations that look at no float), adds the stored values into a zero
  4096 × 4096 matrix at their (row, column) pairs, and contracts the activations' last axis with the matrix's
  second axis. Its @main is a straight line of 76 host operations once its helper functions are read at their
  call sites. The first 55 (`pre`) end with the row number of every stored value; the last 21 (`post`) pair the
  two index vectors, scatter and contract. Every weakly fair execution terminates with each buffer at the fold
  of those operations over the launch contents.
-/
import proofs.«126825_j56341380989458_2_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The differences of consecutive row offsets: how many stored values each row has. -/
abbrev s0 : List (HloOp τ sig (Elt F)) :=
  [ StableHlo.TRef.unary (.of main_arg2 : StableHlo.TRef sig ⟨S4097, .i32⟩) (.of main_call0_v0 : StableHlo.TRef sig ⟨S4096, .i32⟩) (extractStridedSlice S4096 ![1] · slices_S4097_S4096_1),
    StableHlo.TRef.unary (.of main_arg2 : StableHlo.TRef sig ⟨S4097, .i32⟩) (.of main_call0_v1 : StableHlo.TRef sig ⟨S4096, .i32⟩) (extractStridedSlice S4096 ![0] · slices_S4097_S4096_0),
    StableHlo.TRef.binary (.of main_call0_v0 : StableHlo.TRef sig ⟨S4096, .i32⟩) (.of main_call0_v1 : StableHlo.TRef sig ⟨S4096, .i32⟩) (.of main_v0 : StableHlo.TRef sig ⟨S4096, .i32⟩) subi ]
theorem s0_sub : (s0 : List (HloOp τ sig (Elt F))).Forall fun op => op.bufs ⊆ StableHlo.tcRefs τ sig :=
  ⟨StableHlo.unary_bufs_sub .., StableHlo.unary_bufs_sub .., StableHlo.binary_bufs_sub ..⟩
theorem s0_fresh : ∀ op ∈ (s0 : List (HloOp τ sig (Elt F))), op.fresh = ∅ := by
  intro _ h; (repeat (cases h with | head => rfl | tail _ h => ?_)); exact nomatch h

/-- The row numbers 0 … 4095. -/
abbrev s1 : List (HloOp τ sig (Elt F)) :=
  [ StableHlo.nullary main_v1 (iotaInDim S4096 32 0) ]
theorem s1_sub : (s1 : List (HloOp τ sig (Elt F))).Forall fun op => op.bufs ⊆ StableHlo.tcRefs τ sig :=
  StableHlo.nullary_bufs_sub ..
theorem s1_fresh : ∀ op ∈ (s1 : List (HloOp τ sig (Elt F))), op.fresh = ∅ := by
  intro _ h; (repeat (cases h with | head => rfl | tail _ h => ?_)); exact nomatch h

/-- The counts rotated by one place. -/
abbrev s2 : List (HloOp τ sig (Elt F)) :=
  [ StableHlo.TRef.unary (.of main_v0 : StableHlo.TRef sig ⟨S4096, .i32⟩) (.of main_call1_v0 : StableHlo.TRef sig ⟨S1, .i32⟩) (extractStridedSlice S1 ![4095] · slices_S4096_S1_4095),
    StableHlo.TRef.unary (.of main_v0 : StableHlo.TRef sig ⟨S4096, .i32⟩) (.of main_call1_v1 : StableHlo.TRef sig ⟨S4095, .i32⟩) (extractStridedSlice S4095 ![0] · slices_S4096_S4095_0),
    StableHlo.TRef.binary (.of main_call1_v0 : StableHlo.TRef sig ⟨S1, .i32⟩) (.of main_call1_v1 : StableHlo.TRef sig ⟨S4095, .i32⟩) (.of main_v2 : StableHlo.TRef sig ⟨S4096, .i32⟩) (fun a b => concatenate S4096 0 [⟨S1, a⟩, ⟨S4095, b⟩] concatenates_S1_S4095_S4096_d0) ]
theorem s2_sub : (s2 : List (HloOp τ sig (Elt F))).Forall fun op => op.bufs ⊆ StableHlo.tcRefs τ sig :=
  ⟨StableHlo.unary_bufs_sub .., StableHlo.unary_bufs_sub .., StableHlo.binary_bufs_sub ..⟩
theorem s2_fresh : ∀ op ∈ (s2 : List (HloOp τ sig (Elt F))), op.fresh = ∅ := by
  intro _ h; (repeat (cases h with | head => rfl | tail _ h => ?_)); exact nomatch h

/-- The rotated counts with a zero in front: each row's first stored position, before summing. -/
abbrev s3 : List (HloOp τ sig (Elt F)) :=
  [ StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v2 main_v3 main_c_0 main_v4 ((fun x i u => Host.scatter scatter_S4096_S1_S__n_0_0_0 (fun _ b => b) x i u) : (⟨S4096, .i32⟩ : BufTy).Contents (Elt F) → (⟨S1, .i32⟩ : BufTy).Contents (Elt F) → (⟨S_, .i32⟩ : BufTy).Contents (Elt F) → (⟨S4096, .i32⟩ : BufTy).Contents (Elt F)) ]
theorem s3_sub : (s3 : List (HloOp τ sig (Elt F))).Forall fun op => op.bufs ⊆ StableHlo.tcRefs τ sig :=
  ⟨StableHlo.nullary_bufs_sub .., StableHlo.unary_bufs_sub .., StableHlo.nullary_bufs_sub .., StableHlo.ternary_bufs_sub ..⟩
theorem s3_fresh : ∀ op ∈ (s3 : List (HloOp τ sig (Elt F))), op.fresh = ∅ := by
  intro _ h; (repeat (cases h with | head => rfl | tail _ h => ?_)); exact nomatch h

/-- Their running sum: the position at which each row's stored values begin. -/
abbrev s4 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v4 : StableHlo.TRef sig ⟨S4096, .i32⟩) (.of main_call2_call0_v0 : StableHlo.TRef sig ⟨S_, .i32⟩) (.of main_v5 : StableHlo.TRef sig ⟨S4096, .i32⟩) (fun x v => Host.reduceWindow IntOp.addi ![4096] ![1] ![4095] ![0] x v reduceWindows_S4096_S4096_w4096s1p4095_0 h_S_) ]
theorem s4_sub : (s4 : List (HloOp τ sig (Elt F))).Forall fun op => op.bufs ⊆ StableHlo.tcRefs τ sig :=
  ⟨StableHlo.nullary_bufs_sub .., StableHlo.unary_bufs_sub .., StableHlo.binary_bufs_sub ..⟩
theorem s4_fresh : ∀ op ∈ (s4 : List (HloOp τ sig (Elt F))), op.fresh = ∅ := by
  intro _ h; (repeat (cases h with | head => rfl | tail _ h => ?_)); exact nomatch h

/-- One mark per row at its first position (a position past the end marks nothing). -/
abbrev s5 : List (HloOp τ sig (Elt F)) :=
  [ StableHlo.nullary main_c_1 (constantI S_ 32 0#32),
    StableHlo.unary main_c_1 main_v6 (broadcastInDim S167772 ![] bcast_S_S167772 : (⟨S_, .i32⟩ : BufTy).Contents (Elt F) → (⟨S167772, .i32⟩ : BufTy).Contents (Elt F)),
    StableHlo.nullary main_c_2 (constantI S_ 32 0#32),
    StableHlo.unary main_c_2 main_v7 (broadcastInDim S4096 ![] bcast_S_S4096 : (⟨S_, .i32⟩ : BufTy).Contents (Elt F) → (⟨S4096, .i32⟩ : BufTy).Contents (Elt F)),
    StableHlo.binary main_v5 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 167772#32),
    StableHlo.unary main_c_3 main_v9 (broadcastInDim S4096 ![] bcast_S_S4096 : (⟨S_, .i32⟩ : BufTy).Contents (Elt F) → (⟨S4096, .i32⟩ : BufTy).Contents (Elt F)),
    StableHlo.binary main_v5 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_v5 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v13 (broadcastInDim S4096 ![] bcast_S_S4096 : (⟨S_, .i32⟩ : BufTy).Contents (Elt F) → (⟨S4096, .i32⟩ : BufTy).Contents (Elt F)),
    StableHlo.ternary main_v6 main_v12 main_v13 main_v14 ((fun x i u => Host.scatter scatter_S167772_S4096x1_S4096_n_0_0_1 IntOp.addi x i u) : (⟨S167772, .i32⟩ : BufTy).Contents (Elt F) → (⟨S4096x1, .i32⟩ : BufTy).Contents (Elt F) → (⟨S4096, .i32⟩ : BufTy).Contents (Elt F) → (⟨S167772, .i32⟩ : BufTy).Contents (Elt F)) ]
theorem s5_sub : (s5 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
theorem s5_fresh : ∀ op ∈ (s5 : List (HloOp τ sig (Elt F))), op.fresh = ∅ := by
  intro _ h; (repeat (cases h with | head => rfl | tail _ h => ?_)); exact nomatch h

/-- The running sum of the marks. -/
abbrev s6 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v14 : StableHlo.TRef sig ⟨S167772, .i32⟩) (.of main_call3_call0_v0 : StableHlo.TRef sig ⟨S_, .i32⟩) (.of main_v15 : StableHlo.TRef sig ⟨S167772, .i32⟩) (fun x v => Host.reduceWindow IntOp.addi ![167772] ![1] ![167771] ![0] x v reduceWindows_S167772_S167772_w167772s1p167771_0 h_S_) ]
theorem s6_sub : (s6 : List (HloOp τ sig (Elt F))).Forall fun op => op.bufs ⊆ StableHlo.tcRefs τ sig :=
  ⟨StableHlo.nullary_bufs_sub .., StableHlo.unary_bufs_sub .., StableHlo.binary_bufs_sub ..⟩
theorem s6_fresh : ∀ op ∈ (s6 : List (HloOp τ sig (Elt F))), op.fresh = ∅ := by
  intro _ h; (repeat (cases h with | head => rfl | tail _ h => ?_)); exact nomatch h

/-- Less one: for each stored position the number of the row it belongs to, as a position in the row numbers. -/
abbrev s7 : List (HloOp τ sig (Elt F)) :=
  [ StableHlo.nullary main_c_5 (constantI S_ 32 1#32),
    StableHlo.unary main_c_5 main_v16 (broadcastInDim S167772 ![] bcast_S_S167772 : (⟨S_, .i32⟩ : BufTy).Contents (Elt F) → (⟨S167772, .i32⟩ : BufTy).Contents (Elt F)),
    StableHlo.binary main_v15 main_v16 main_v17 (subi : (⟨S167772, .i32⟩ : BufTy).Contents (Elt F) → (⟨S167772, .i32⟩ : BufTy).Contents (Elt F) → (⟨S167772, .i32⟩ : BufTy).Contents (Elt F)) ]
theorem s7_sub : (s7 : List (HloOp τ sig (Elt F))).Forall fun op => op.bufs ⊆ StableHlo.tcRefs τ sig :=
  ⟨StableHlo.nullary_bufs_sub .., StableHlo.unary_bufs_sub .., StableHlo.binary_bufs_sub ..⟩
theorem s7_fresh : ∀ op ∈ (s7 : List (HloOp τ sig (Elt F))), op.fresh = ∅ := by
  intro _ h; (repeat (cases h with | head => rfl | tail _ h => ?_)); exact nomatch h

/-- The row numbers read at those positions, a position outside them giving the least integer. -/
abbrev s8 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S167772, .i32⟩) (broadcastInDim S167772 ![] bcast_S_S167772),
    StableHlo.TRef.binary (.of main_v17 : StableHlo.TRef sig ⟨S167772, .i32⟩) (.of main_call4_v0 : StableHlo.TRef sig ⟨S167772, .i32⟩) (.of main_call4_v1 : StableHlo.TRef sig ⟨S167772, .i1⟩) (cmpi .slt),
    StableHlo.TRef.nullary (.of main_call4_c_0 : StableHlo.TRef sig ⟨S_, .i32⟩) (constantI S_ 32 4096#32),
    StableHlo.TRef.unary (.of main_call4_c_0 : StableHlo.TRef sig ⟨S_, .i32⟩) (.of main_call4_v2 : StableHlo.TRef sig ⟨S167772, .i32⟩) (broadcastInDim S167772 ![] bcast_S_S167772),
    StableHlo.TRef.binary (.of main_v17 : StableHlo.TRef sig ⟨S167772, .i32⟩) (.of main_call4_v2 : StableHlo.TRef sig ⟨S167772, .i32⟩) (.of main_call4_v3 : StableHlo.TRef sig ⟨S167772, .i32⟩) addi,
    StableHlo.TRef.ternary (.of main_call4_v1 : StableHlo.TRef sig ⟨S167772, .i1⟩) (.of main_call4_v3 : StableHlo.TRef sig ⟨S167772, .i32⟩) (.of main_v17 : StableHlo.TRef sig ⟨S167772, .i32⟩) (.of main_call4_v4 : StableHlo.TRef sig ⟨S167772, .i32⟩) select,
    StableHlo.TRef.unary main_call4_call0.v0 (.of main_call4_v5 : StableHlo.TRef sig ⟨S167772x1, .i32⟩) (broadcastInDim S167772x1 ![0] bcast_S167772_S167772x1_0),
    StableHlo.TRef.nullary (.of main_call4_c_1 : StableHlo.TRef sig ⟨S1, .i32⟩) (constantI S1 32 4095#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S167772x1, .i32⟩) (broadcastInDim S167772x1 ![] bcast_S_S167772x1),
    StableHlo.TRef.binary (.of main_call4_v5 : StableHlo.TRef sig ⟨S167772x1, .i32⟩) (.of main_call4_v6 : StableHlo.TRef sig ⟨S167772x1, .i32⟩) (.of main_call4_v7 : StableHlo.TRef sig ⟨S167772x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S167772x1, .i32⟩) (broadcastInDim S167772x1 ![0, 1] bcast_S1x1_S167772x1_0_1),
    StableHlo.TRef.binary (.of main_call4_v5 : StableHlo.TRef sig ⟨S167772x1, .i32⟩) (.of main_call4_v9 : StableHlo.TRef sig ⟨S167772x1, .i32⟩) (.of main_call4_v10 : StableHlo.TRef sig ⟨S167772x1, .i1⟩) (cmpi .sle),
    StableHlo.TRef.binary (.of main_call4_v7 : StableHlo.TRef sig ⟨S167772x1, .i1⟩) (.of main_call4_v10 : StableHlo.TRef sig ⟨S167772x1, .i1⟩) (.of main_call4_v11 : StableHlo.TRef sig ⟨S167772x1, .i1⟩) andi,
    StableHlo.TRef.nullary (.of main_call4_c_3 : StableHlo.TRef sig ⟨S_, .i1⟩) (constantI S_ 1 1#1),
    StableHlo.TRef.binary (.of main_call4_v11 : StableHlo.TRef sig ⟨S167772x1, .i1⟩) (.of main_call4_c_3 : StableHlo.TRef sig ⟨S_, .i1⟩) (.of main_call4_v12 : StableHlo.TRef sig ⟨S167772, .i1⟩) (fun x v => Host.reduce IntOp.andi x v reducesTo_S167772x1_S167772_d1 h_S_),
    StableHlo.TRef.binary (.of main_v1 : StableHlo.TRef sig ⟨S4096, .i32⟩) (.of main_call4_v5 : StableHlo.TRef sig ⟨S167772x1, .i32⟩) (.of main_call4_v13 : StableHlo.TRef sig ⟨S167772, .i32⟩) (fun x i => Host.gather gather_S4096_S167772x1_S167772_n_0_n_n_0_1_1 x i),
    StableHlo.TRef.nullary (.of main_call4_c_4 : StableHlo.TRef sig ⟨S_, .i32⟩) (constantI S_ 32 2147483648#32),
    StableHlo.TRef.unary (.of main_call4_c_4 : StableHlo.TRef sig ⟨S_, .i32⟩) (.of main_call4_v14 : StableHlo.TRef sig ⟨S167772, .i32⟩) (broadcastInDim S167772 ![] bcast_S_S167772),
    StableHlo.TRef.ternary (.of main_call4_v12 : StableHlo.TRef sig ⟨S167772, .i1⟩) (.of main_call4_v13 : StableHlo.TRef sig ⟨S167772, .i32⟩) (.of main_call4_v14 : StableHlo.TRef sig ⟨S167772, .i32⟩) (.of main_v18 : StableHlo.TRef sig ⟨S167772, .i32⟩) select ]
theorem s8_sub : (s8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
theorem s8_fresh : ∀ op ∈ (s8 : List (HloOp τ sig (Elt F))), op.fresh = ∅ := by
  intro _ h; (repeat (cases h with | head => rfl | tail _ h => ?_)); exact nomatch h

/-- The two index vectors with negative entries shifted by 4096, paired into (row, column), the stored values added into the zero matrix at those pairs, and the activations contracted with it. -/
abbrev post : List (HloOp τ sig (Elt F)) :=
  [ StableHlo.nullary main_cst (constant S_ .f32 0x00000000#32),
    StableHlo.unary main_cst main_v19 (broadcastInDim S4096x4096 ![] bcast_S_S4096x4096 : (⟨S_, .f32⟩ : BufTy).Contents (Elt F) → (⟨S4096x4096, .f32⟩ : BufTy).Contents (Elt F)),
    StableHlo.nullary main_c_6 (constantI S_ 32 0#32),
    StableHlo.unary main_c_6 main_v20 (broadcastInDim S167772 ![] bcast_S_S167772 : (⟨S_, .i32⟩ : BufTy).Contents (Elt F) → (⟨S167772, .i32⟩ : BufTy).Contents (Elt F)),
    StableHlo.binary main_v18 main_v20 main_v21 (cmpi .slt : (⟨S167772, .i32⟩ : BufTy).Contents (Elt F) → (⟨S167772, .i32⟩ : BufTy).Contents (Elt F) → (⟨S167772, .i1⟩ : BufTy).Contents (Elt F)),
    StableHlo.nullary main_c_7 (constantI S_ 32 4096#32),
    StableHlo.unary main_c_7 main_v22 (broadcastInDim S167772 ![] bcast_S_S167772 : (⟨S_, .i32⟩ : BufTy).Contents (Elt F) → (⟨S167772, .i32⟩ : BufTy).Contents (Elt F)),
    StableHlo.binary main_v18 main_v22 main_v23 (addi : (⟨S167772, .i32⟩ : BufTy).Contents (Elt F) → (⟨S167772, .i32⟩ : BufTy).Contents (Elt F) → (⟨S167772, .i32⟩ : BufTy).Contents (Elt F)),
    StableHlo.ternary main_v21 main_v23 main_v18 main_v24 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.nullary main_c_8 (constantI S_ 32 0#32),
    StableHlo.unary main_c_8 main_v25 (broadcastInDim S167772 ![] bcast_S_S167772 : (⟨S_, .i32⟩ : BufTy).Contents (Elt F) → (⟨S167772, .i32⟩ : BufTy).Contents (Elt F)),
    StableHlo.binary main_arg3 main_v25 main_v26 (cmpi .slt : (⟨S167772, .i32⟩ : BufTy).Contents (Elt F) → (⟨S167772, .i32⟩ : BufTy).Contents (Elt F) → (⟨S167772, .i1⟩ : BufTy).Contents (Elt F)),
    StableHlo.nullary main_c_9 (constantI S_ 32 4096#32),
    StableHlo.unary main_c_9 main_v27 (broadcastInDim S167772 ![] bcast_S_S167772 : (⟨S_, .i32⟩ : BufTy).Contents (Elt F) → (⟨S167772, .i32⟩ : BufTy).Contents (Elt F)),
    StableHlo.binary main_arg3 main_v27 main_v28 (addi : (⟨S167772, .i32⟩ : BufTy).Contents (Elt F) → (⟨S167772, .i32⟩ : BufTy).Contents (Elt F) → (⟨S167772, .i32⟩ : BufTy).Contents (Elt F)),
    StableHlo.ternary main_v26 main_v28 main_arg3 main_v29 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v24 main_v30 (broadcastInDim S167772x1 ![0] bcast_S167772_S167772x1_0 : (⟨S167772, .i32⟩ : BufTy).Contents (Elt F) → (⟨S167772x1, .i32⟩ : BufTy).Contents (Elt F)),
    StableHlo.unary main_v29 main_v31 (broadcastInDim S167772x1 ![0] bcast_S167772_S167772x1_0 : (⟨S167772, .i32⟩ : BufTy).Contents (Elt F) → (⟨S167772x1, .i32⟩ : BufTy).Contents (Elt F)),
    StableHlo.binary main_v30 main_v31 main_v32 ((fun a b => concatenate S167772x2 1 [⟨S167772x1, a⟩, ⟨S167772x1, b⟩] concatenates_S167772x1_S167772x1_S167772x2_d1) : (⟨S167772x1, .i32⟩ : BufTy).Contents (Elt F) → (⟨S167772x1, .i32⟩ : BufTy).Contents (Elt F) → (⟨S167772x2, .i32⟩ : BufTy).Contents (Elt F)),
    StableHlo.ternary main_v19 main_v32 main_arg1 main_v33 ((fun x i u => Host.scatterAdd scatter_S4096x4096_S167772x2_S167772_n_01_01_1 x i u) : (⟨S4096x4096, .f32⟩ : BufTy).Contents (Elt F) → (⟨S167772x2, .i32⟩ : BufTy).Contents (Elt F) → (⟨S167772, .f32⟩ : BufTy).Contents (Elt F) → (⟨S4096x4096, .f32⟩ : BufTy).Contents (Elt F)),
    StableHlo.binary main_arg0 main_v33 main_v34 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)) ]
theorem post_sub : (post : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.binary_bufs_sub ..⟩
theorem post_fresh : ∀ op ∈ (post : List (HloOp τ sig (Elt F))), op.fresh = ∅ := by
  intro _ h; (repeat (cases h with | head => rfl | tail _ h => ?_)); exact nomatch h

/-- The operations up to the row number of every stored value (`main_v18`). -/
abbrev pre : List (HloOp τ sig (Elt F)) := List.flatten [s0, s1, s2, s3, s4, s5, s6, s7, s8]

/-- Running a concatenation is running its second part from where the first leaves the buffers. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- Straight lines run one after the other are their concatenation run as one line. -/
theorem chain_seq {Λ : Labels} (ls : List (List (HloOp τ sig (Elt F)))) :
    (Pipeline.chain (ls.map fun l => (StableHlo.seq l : Prog (TpuEff nD τ sig (Elt F) Λ .tc) PUnit))) = StableHlo.seq ls.flatten := by
  induction ls with
  | nil => rfl
  | cons l ls ih =>
    rw [List.map_cons, Pipeline.chain_cons, ih, List.flatten_cons, StableHlo.seq_append]

/-- @main is the chain of its stretches: a helper function's operations where it is called. -/
theorem main_chain (c : Dev nD) : main (F := F) c = (Pipeline.chain
  [ StableHlo.seq s0,
    StableHlo.seq s1,
    StableHlo.seq s2,
    StableHlo.seq s3,
    StableHlo.seq s4,
    StableHlo.seq s5,
    StableHlo.seq s6,
    StableHlo.seq s7,
    StableHlo.seq s8,
    StableHlo.seq post ] : Prog (TpuEff nD τ sig (Elt F) (Pipeline.Sig Λ₀ (Fin 0) fun p => (pcfgs (F := F) p).Adm) .tc) PUnit) := by
  chain_rfl

/-- So @main is one straight line. -/
theorem main_eq (c : Dev nD) : main (F := F) c = StableHlo.seq (pre ++ post) := by
  rw [main_chain c]
  exact (chain_seq [s0, s1, s2, s3, s4, s5, s6, s7, s8, post]).trans (congrArg StableHlo.seq (by
    simp only [pre, List.flatten_cons, List.flatten_nil, List.append_nil, List.append_assoc]))

theorem scopedRefs_eq : (Finset.univ.filter fun b : Ref sig .tc => b.isScoped) = ∅ := by decide
theorem scopedSems_eq : (Finset.univ.filter fun sm : SemLoc sig => sm.isScoped .tc) = ∅ := by decide

theorem mem_all {op : HloOp τ sig (Elt F)} (h : op ∈ (pre ++ post : List (HloOp τ sig (Elt F)))) :
    op ∈ (s0 : List (HloOp τ sig (Elt F))) ∨ op ∈ (s1 : List (HloOp τ sig (Elt F))) ∨ op ∈ (s2 : List (HloOp τ sig (Elt F))) ∨ op ∈ (s3 : List (HloOp τ sig (Elt F))) ∨ op ∈ (s4 : List (HloOp τ sig (Elt F))) ∨ op ∈ (s5 : List (HloOp τ sig (Elt F))) ∨ op ∈ (s6 : List (HloOp τ sig (Elt F))) ∨ op ∈ (s7 : List (HloOp τ sig (Elt F))) ∨ op ∈ (s8 : List (HloOp τ sig (Elt F))) ∨ op ∈ (post : List (HloOp τ sig (Elt F))) := by
  simp only [pre, List.flatten_cons, List.flatten_nil, List.append_nil, List.mem_append] at h
  tauto

/-- On every device, from any memory with zero counters: every weakly fair execution of @main terminates with
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after post (StableHlo.after pre (StableHlo.launchContents m c)) (Proc.devRef .tc b) :=
  (θ_run defs _ _).mono (fun _ h c b => (h c b).trans (congrFun (after_append pre post _) _))
    (StableHlo.run_seq scopedRefs_eq scopedSems_eq defs main (fun _ => pre ++ post) main_eq
      (fun _ => List.forall_iff_forall_mem.mpr fun op hop => by
        rcases mem_all hop with h | h | h | h | h | h | h | h | h | h
        · exact (List.forall_iff_forall_mem.mp s0_sub) op h
        · exact (List.forall_iff_forall_mem.mp s1_sub) op h
        · exact (List.forall_iff_forall_mem.mp s2_sub) op h
        · exact (List.forall_iff_forall_mem.mp s3_sub) op h
        · exact (List.forall_iff_forall_mem.mp s4_sub) op h
        · exact (List.forall_iff_forall_mem.mp s5_sub) op h
        · exact (List.forall_iff_forall_mem.mp s6_sub) op h
        · exact (List.forall_iff_forall_mem.mp s7_sub) op h
        · exact (List.forall_iff_forall_mem.mp s8_sub) op h
        · exact (List.forall_iff_forall_mem.mp post_sub) op h)
      m ρ
      (fun _ op hop => by
        rcases mem_all hop with h | h | h | h | h | h | h | h | h | h
        · exact s0_fresh op h
        · exact s1_fresh op h
        · exact s2_fresh op h
        · exact s3_fresh op h
        · exact s4_fresh op h
        · exact s5_fresh op h
        · exact s6_fresh op h
        · exact s7_fresh op h
        · exact s8_fresh op h
        · exact post_fresh op h))

end Cert.ReferenceIdeal.Hand

end
-- ==== Proof.DotValue.lean ====
/-
  The dense product of the layer, read at an entry.

  The product contracts the last axis of the activations x (4 by 2048 by 4096) with the last axis of the dense
  weight w (4096 by 4096); the result's axes are the activations' first two and then the weight's first. Over
  the extended reals its entry (b, s, o) is the plain sum, over the 4096 input features i, of
  x[b, s, i] · w[o, i]: there is no rounding and no order left in the sum, and since the contraction runs over
  one axis its index is a single coordinate.
-/
import Idealize.ShloMosaic.Lib.ValueIdx
import Idealize.ShloMosaic.PureOps.Ideal.Laws
import proofs.«126825_j56341380989458_2_alg».proof.ReferenceIdeal

noncomputable section

open scoped BigOperators

namespace Cert.ReferenceIdeal.DotValue

open Idealize.ShloMosaic Idealize.ShloMosaic.ValueIdx
open Cert.ReferenceIdeal Cert.ReferenceIdeal.Facts₀

variable [Cert.ReferenceIdeal.Facts]

/-- The dimension numbers of the product: activations' axis 2 against the weight's axis 1. -/
abbrev D : DotDims S4x2048x4096 S4096x4096 S4x2048x4096 := dot_S4x2048x4096_S4096x4096_S4x2048x4096_2_1_01_0_n_n

/-- The activations' index at result entry (b, s, o) and input feature i is (b, s, i). -/
theorem lhsIdx_eq (b : Fin 4) (s : Fin 2048) (o : Fin 4096) (i : Fin 4096) :
    D.lhsIdx (ix3 b s o) ((contrEquiv1 D 4096 rfl rfl).symm i) = ix3 b s i := by
  funext a
  match a with
  | ⟨0, _⟩ => exact Fin.ext rfl
  | ⟨1, _⟩ => exact Fin.ext rfl
  | ⟨2, _⟩ =>
    refine Fin.ext ?_
    exact (D.lhsIdx_val_of_single (cl := 2) rfl (ix3 b s o) _).trans (contrEquiv1_symm_val D 4096 rfl rfl i)

/-- The weight's index at result entry (b, s, o) and input feature i is (o, i). -/
theorem rhsIdx_eq (b : Fin 4) (s : Fin 2048) (o : Fin 4096) (i : Fin 4096) :
    D.rhsIdx (ix3 b s o) ((contrEquiv1 D 4096 rfl rfl).symm i) = ix2 o i := by
  funext a
  match a with
  | ⟨0, _⟩ => exact Fin.ext rfl
  | ⟨1, _⟩ =>
    refine Fin.ext ?_
    exact (D.rhsIdx_val_of_single (cr := 1) rfl (ix3 b s o) _).trans (contrEquiv1_symm_val D 4096 rfl rfl i)

/-- The product at entry (b, s, o): the sum over the 4096 input features. -/
theorem dot_apply (x : FVec Ideal Cert.ReferenceIdeal.S4x2048x4096 .f32) (w : FVec Ideal Cert.ReferenceIdeal.S4096x4096 .f32)
    (b : Fin 4) (s : Fin 2048) (o : Fin 4096) :
    Host.dotGeneral (F := Ideal) Cert.ReferenceIdeal.dot_S4x2048x4096_S4096x4096_S4x2048x4096_2_1_01_0_n_n none x w (ix3 b s o)
      = ∑ i : Fin 4096, x (ix3 b s i) * w (ix2 o i) := by
  simp only [Host.dotGeneral]
  refine (Ideal.dotGeneral_apply D none .single x w (ix3 b s o)).trans ?_
  rw [← Equiv.sum_comp (contrEquiv1 D 4096 rfl rfl).symm]
  refine Finset.sum_congr rfl fun i _ => ?_
  rw [lhsIdx_eq b s o i, rhsIdx_eq b s o i]

end Cert.ReferenceIdeal.DotValue

end
-- ==== Proof.RefValue.lean ====
/-
  The reference program's result, as the layer's mathematics.

  After the row number of every stored value is known, the reference shifts negative row and column numbers by
  4096, pairs them, adds the stored values into the zero 4096 by 4096 matrix at those pairs and contracts the
  activations' last axis with the matrix's second axis. Read at an entry, the contraction is the sum over the
  4096 input features of activation times matrix entry, and the matrix entry is the sum of the stored values
  whose (row, column) pair is that entry: so the result is the layer's result for the dense weight that the
  stored values, the shifted row numbers and the shifted column numbers describe. No operation writes one of
  the four arguments, so each still holds what it held at launch.
-/
import Idealize.ShloMosaic.Lib.StableHlo.Run
import Idealize.ShloMosaic.Lib.ValueIdx
import proofs.«126825_j56341380989458_2_alg».proof.Proof.RefRun
import proofs.«126825_j56341380989458_2_alg».proof.Proof.DotValue
import proofs.«126825_j56341380989458_2_alg».proof.Proof.Spec

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.ValueIdx Idealize.ShloMosaic.StableHlo

/-- The shifted row numbers: the buffer that holds them after the last 21 operations, as operations on the
    row numbers. -/
theorem rows_ops (W : Valuation τ sig (Elt Ideal)) :
    (StableHlo.after post W (Proc.devRef .tc main_v24) : IVec S167772 32)
      = select (cmpi .slt (W (Proc.devRef .tc main_v18) : IVec S167772 32) (broadcastInDim S167772 ![] bcast_S_S167772 (constantI S_ 32 0#32)))
          (addi (W (Proc.devRef .tc main_v18) : IVec S167772 32) (broadcastInDim S167772 ![] bcast_S_S167772 (constantI S_ 32 4096#32)))
          (W (Proc.devRef .tc main_v18)) := by
  dsimp only [post]
  after_results_simp

/-- The shifted column numbers, likewise, as operations on the column numbers. -/
theorem cols_ops (W : Valuation τ sig (Elt Ideal)) :
    (StableHlo.after post W (Proc.devRef .tc main_v29) : IVec S167772 32)
      = select (cmpi .slt (W (Proc.devRef .tc main_arg3) : IVec S167772 32) (broadcastInDim S167772 ![] bcast_S_S167772 (constantI S_ 32 0#32)))
          (addi (W (Proc.devRef .tc main_arg3) : IVec S167772 32) (broadcastInDim S167772 ![] bcast_S_S167772 (constantI S_ 32 4096#32)))
          (W (Proc.devRef .tc main_arg3)) := by
  dsimp only [post]
  after_results_simp

set_option maxHeartbeats 1600000 in
/-- The result buffer after the last 21 operations: the contraction of the activations with the matrix the
    stored values are added into, the two shifted index vectors named by the buffers that hold them. -/
theorem result_ops (W : Valuation τ sig (Elt Ideal)) :
    (StableHlo.after post W (Proc.devRef .tc main_v34) : S4x2048x4096.Idx → EReal)
      = Host.dotGeneral (F := Ideal) (φ₁ := .f32) (φ₂ := .f32) dot_S4x2048x4096_S4096x4096_S4x2048x4096_2_1_01_0_n_n none
          (W (Proc.devRef .tc main_arg0))
          (Host.scatterAdd (F := Ideal) (φ := .f32) scatter_S4096x4096_S167772x2_S167772_n_01_01_1
            (broadcastInDim S4096x4096 ![] bcast_S_S4096x4096 (constant (F := Ideal) S_ .f32 0x00000000#32))
            (concatenate S167772x2 1
              [⟨S167772x1, broadcastInDim S167772x1 ![0] bcast_S167772_S167772x1_0 (StableHlo.after post W (Proc.devRef .tc main_v24) : IVec S167772 32)⟩,
               ⟨S167772x1, broadcastInDim S167772x1 ![0] bcast_S167772_S167772x1_0 (StableHlo.after post W (Proc.devRef .tc main_v29) : IVec S167772 32)⟩]
              concatenates_S167772x1_S167772x1_S167772x2_d1)
            (W (Proc.devRef .tc main_arg1))) := by
  rw [rows_ops W, cols_ops W]
  dsimp only [post]
  after_results

/-- The result is the layer's result for the dense weight described by the stored values and the two shifted
    index vectors, given that adding the stored values into the zero matrix yields that weight entry by entry. -/
theorem result_eq_of
    (hW : ∀ (vals : FVec Ideal S167772 .f32) (R C : IVec S167772 32) (o i : Fin 4096),
      Host.scatterAdd (F := Ideal) scatter_S4096x4096_S167772x2_S167772_n_01_01_1
        (broadcastInDim S4096x4096 ![] bcast_S_S4096x4096 (constant (F := Ideal) S_ .f32 0x00000000#32))
        (concatenate S167772x2 1
          [⟨S167772x1, broadcastInDim S167772x1 ![0] bcast_S167772_S167772x1_0 R⟩,
           ⟨S167772x1, broadcastInDim S167772x1 ![0] bcast_S167772_S167772x1_0 C⟩]
          concatenates_S167772x1_S167772x1_S167772x2_d1)
        vals (ix2 o i) = Cert.Spmm.weight vals R C o i)
    (W : Valuation τ sig (Elt Ideal)) :
    (StableHlo.after post W (Proc.devRef .tc main_v34) : S4x2048x4096.Idx → EReal)
      = Cert.Spmm.out (W (Proc.devRef .tc main_arg0))
          (Cert.Spmm.weight (W (Proc.devRef .tc main_arg1)) (StableHlo.after post W (Proc.devRef .tc main_v24))
            (StableHlo.after post W (Proc.devRef .tc main_v29))) := by
  funext j
  obtain ⟨b, s, o, rfl⟩ : ∃ (b : Fin 4) (s : Fin 2048) (o : Fin 4096), j = ix3 b s o := ⟨j 0, j 1, j 2, eq_ix3 j⟩
  rw [Cert.Spmm.out_apply]
  unfold Cert.Spmm.outAt
  refine (congrFun (result_ops W) (ix3 b s o)).trans ?_
  refine (Cert.ReferenceIdeal.DotValue.dot_apply _ _ b s o).trans ?_
  refine Finset.sum_congr rfl fun i _ => ?_
  rw [hW]

/-- No operation of the last 21 writes the activations, … -/
theorem post_kept0 (W : Valuation τ sig (Elt Ideal)) :
    StableHlo.after post W (Proc.devRef .tc main_arg0) = W (Proc.devRef .tc main_arg0) :=
  StableHlo.after_of_forall_not_mem (b := Proc.devRef .tc main_arg0) _ _ (List.forall_iff_forall_mem.mp (by
    simp only [post, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- … the stored values, … -/
theorem post_kept1 (W : Valuation τ sig (Elt Ideal)) :
    StableHlo.after post W (Proc.devRef .tc main_arg1) = W (Proc.devRef .tc main_arg1) :=
  StableHlo.after_of_forall_not_mem (b := Proc.devRef .tc main_arg1) _ _ (List.forall_iff_forall_mem.mp (by
    simp only [post, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- … the row offsets … -/
theorem post_kept2 (W : Valuation τ sig (Elt Ideal)) :
    StableHlo.after post W (Proc.devRef .tc main_arg2) = W (Proc.devRef .tc main_arg2) :=
  StableHlo.after_of_forall_not_mem (b := Proc.devRef .tc main_arg2) _ _ (List.forall_iff_forall_mem.mp (by
    simp only [post, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- … or the column numbers. -/
theorem post_kept3 (W : Valuation τ sig (Elt Ideal)) :
    StableHlo.after post W (Proc.devRef .tc main_arg3) = W (Proc.devRef .tc main_arg3) :=
  StableHlo.after_of_forall_not_mem (b := Proc.devRef .tc main_arg3) _ _ (List.forall_iff_forall_mem.mp (by
    simp only [post, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any of the first 55: the activations, … -/
theorem pre_kept0 (m : (ℓ : Loc nD τ sig) → Buf (Elt Ideal) ℓ) (c : Dev nD) :
    StableHlo.after pre (StableHlo.launchContents m c) (Proc.devRef .tc main_arg0) = m ((c.tc : Thread nD τ).loc main_arg0) :=
  StableHlo.after_of_forall_not_mem (b := Proc.devRef .tc main_arg0) _ _ (List.forall_iff_forall_mem.mp (by
    simp only [pre, s0, s1, s2, s3, s4, s5, s6, s7, s8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- … the stored values, … -/
theorem pre_kept1 (m : (ℓ : Loc nD τ sig) → Buf (Elt Ideal) ℓ) (c : Dev nD) :
    StableHlo.after pre (StableHlo.launchContents m c) (Proc.devRef .tc main_arg1) = m ((c.tc : Thread nD τ).loc main_arg1) :=
  StableHlo.after_of_forall_not_mem (b := Proc.devRef .tc main_arg1) _ _ (List.forall_iff_forall_mem.mp (by
    simp only [pre, s0, s1, s2, s3, s4, s5, s6, s7, s8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- … the row offsets … -/
theorem pre_kept2 (m : (ℓ : Loc nD τ sig) → Buf (Elt Ideal) ℓ) (c : Dev nD) :
    StableHlo.after pre (StableHlo.launchContents m c) (Proc.devRef .tc main_arg2) = m ((c.tc : Thread nD τ).loc main_arg2) :=
  StableHlo.after_of_forall_not_mem (b := Proc.devRef .tc main_arg2) _ _ (List.forall_iff_forall_mem.mp (by
    simp only [pre, s0, s1, s2, s3, s4, s5, s6, s7, s8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- … and the column numbers hold what they held at launch. -/
theorem pre_kept3 (m : (ℓ : Loc nD τ sig) → Buf (Elt Ideal) ℓ) (c : Dev nD) :
    StableHlo.after pre (StableHlo.launchContents m c) (Proc.devRef .tc main_arg3) = m ((c.tc : Thread nD τ).loc main_arg3) :=
  StableHlo.after_of_forall_not_mem (b := Proc.devRef .tc main_arg3) _ _ (List.forall_iff_forall_mem.mp (by
    simp only [pre, s0, s1, s2, s3, s4, s5, s6, s7, s8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- After all 76 operations each of the four arguments holds what it held at launch. -/
theorem args_kept (m : (ℓ : Loc nD τ sig) → Buf (Elt Ideal) ℓ) (c : Dev nD) :
    StableHlo.after post (StableHlo.after pre (StableHlo.launchContents m c)) (Proc.devRef .tc main_arg0) = m ((c.tc : Thread nD τ).loc main_arg0)
    ∧ StableHlo.after post (StableHlo.after pre (StableHlo.launchContents m c)) (Proc.devRef .tc main_arg1) = m ((c.tc : Thread nD τ).loc main_arg1)
    ∧ StableHlo.after post (StableHlo.after pre (StableHlo.launchContents m c)) (Proc.devRef .tc main_arg2) = m ((c.tc : Thread nD τ).loc main_arg2)
    ∧ StableHlo.after post (StableHlo.after pre (StableHlo.launchContents m c)) (Proc.devRef .tc main_arg3) = m ((c.tc : Thread nD τ).loc main_arg3) :=
  ⟨(post_kept0 _).trans (pre_kept0 m c), (post_kept1 _).trans (pre_kept1 m c), (post_kept2 _).trans (pre_kept2 m c),
    (post_kept3 _).trans (pre_kept3 m c)⟩

/-- The shifted row numbers the run computes from the launch contents. -/
abbrev rowsOf (m : (ℓ : Loc nD τ sig) → Buf (Elt Ideal) ℓ) (c : Dev nD) : IVec S167772 32 :=
  StableHlo.after post (StableHlo.after pre (StableHlo.launchContents m c)) (Proc.devRef .tc main_v24)
/-- The shifted column numbers the run computes from the launch contents. -/
abbrev colsOf (m : (ℓ : Loc nD τ sig) → Buf (Elt Ideal) ℓ) (c : Dev nD) : IVec S167772 32 :=
  StableHlo.after post (StableHlo.after pre (StableHlo.launchContents m c)) (Proc.devRef .tc main_v29)

/-- The result and the arguments after the last 21 operations, from any contents W whose activations and
    stored values are named. -/
theorem value_of
    (hW : ∀ (vals : FVec Ideal S167772 .f32) (R C : IVec S167772 32) (o i : Fin 4096),
      Host.scatterAdd (F := Ideal) scatter_S4096x4096_S167772x2_S167772_n_01_01_1
        (broadcastInDim S4096x4096 ![] bcast_S_S4096x4096 (constant (F := Ideal) S_ .f32 0x00000000#32))
        (concatenate S167772x2 1
          [⟨S167772x1, broadcastInDim S167772x1 ![0] bcast_S167772_S167772x1_0 R⟩,
           ⟨S167772x1, broadcastInDim S167772x1 ![0] bcast_S167772_S167772x1_0 C⟩]
          concatenates_S167772x1_S167772x1_S167772x2_d1)
        vals (ix2 o i) = Cert.Spmm.weight vals R C o i)
    (W : Valuation τ sig (Elt Ideal)) (a0 : S4x2048x4096.Idx → EReal) (a1 : S167772.Idx → EReal)
    (h0 : W (Proc.devRef .tc main_arg0) = a0) (h1 : W (Proc.devRef .tc main_arg1) = a1) :
    (StableHlo.after post W (Proc.devRef .tc main_v34) : S4x2048x4096.Idx → EReal)
      = Cert.Spmm.out a0 (Cert.Spmm.weight a1 (StableHlo.after post W (Proc.devRef .tc main_v24))
          (StableHlo.after post W (Proc.devRef .tc main_v29))) := by
  subst h0 h1
  exact result_eq_of hW W

/-- Every weakly fair execution of the reference terminates with the result buffer at the layer's result for
    the dense weight described by the launch's stored values and the shifted index vectors the run computes,
    and with the four arguments as launched. -/
theorem run_value
    (hW : ∀ (vals : FVec Ideal S167772 .f32) (R C : IVec S167772 32) (o i : Fin 4096),
      Host.scatterAdd (F := Ideal) scatter_S4096x4096_S167772x2_S167772_n_01_01_1
        (broadcastInDim S4096x4096 ![] bcast_S_S4096x4096 (constant (F := Ideal) S_ .f32 0x00000000#32))
        (concatenate S167772x2 1
          [⟨S167772x1, broadcastInDim S167772x1 ![0] bcast_S167772_S167772x1_0 R⟩,
           ⟨S167772x1, broadcastInDim S167772x1 ![0] bcast_S167772_S167772x1_0 C⟩]
          concatenates_S167772x1_S167772x1_S167772x2_d1)
        vals (ix2 o i) = Cert.Spmm.weight vals R C o i)
    (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        (r.2.mem ((c.tc : Thread nD τ).loc main_v34) : S4x2048x4096.Idx → EReal)
            = Cert.Spmm.out (m ((c.tc : Thread nD τ).loc main_arg0))
                (Cert.Spmm.weight (m ((c.tc : Thread nD τ).loc main_arg1)) (rowsOf m c) (colsOf m c))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3) :=
  (θ_run defs _ _).mono (fun r h c =>
    ⟨(h c main_v34).trans (value_of hW (StableHlo.after pre (StableHlo.launchContents m c)) _ _ (pre_kept0 m c) (pre_kept1 m c)),
      (h c main_arg0).trans (args_kept m c).1, (h c main_arg1).trans (args_kept m c).2.1,
      (h c main_arg2).trans (args_kept m c).2.2.1, (h c main_arg3).trans (args_kept m c).2.2.2⟩)
    (run_main (F := Ideal) m ρ)

end Cert.ReferenceIdeal.Hand

end
-- ==== Proof.Cross.lean ====
/-
  The two programs compute the row number of every stored value in the same way.

  Both programs turn the row offsets (4097 integers) into the row number of each of the 167772 stored values by
  the same fifty-five integer operations: the differences of consecutive offsets count each row's stored values;
  the counts, rotated by one place and with a zero in front, are summed along to give the position at which each
  row's values begin; a mark is added at each such position and the marks are summed along; the running sum, less
  one, says which row a stored position belongs to, and the row numbers 0 … 4095 are read at it.  No float is
  looked at.  Each program runs these operations on its own copy of the buffers, so the two results are the same
  function of the row offsets: when the two programs start from the same offsets, they hold the same row numbers.

  The argument is a computation: each side is unfolded, operation by operation, to the expression that the
  operations build from the row offsets; the two expressions are then the same expression.
-/
import proofs.«126825_j56341380989458_2_alg».proof.Proof.RefRun
import proofs.«126825_j56341380989458_2_alg».proof.Proof.Gen.KernelIdeal.Launch
import Idealize.ShloMosaic.Lib.StableHlo.Run
import Idealize.ShloMosaic.PureOps.Ideal.Laws

noncomputable section

namespace Cert.Cross

open Idealize.ShloMosaic Idealize.ShloMosaic.TcCoe Idealize.SL.Sem

variable [Cert.ReferenceIdeal.Facts] [Cert.KernelIdeal.Facts]

set_option maxHeartbeats 400000 in
/-- From equal row offsets, the reference's first fifty-five operations and the kernel program's first nine
    stretches of host operations leave the same row number for every stored value. -/
theorem rows_agree (VK : Valuation Cert.KernelIdeal.τ Cert.KernelIdeal.sig (Elt Ideal))
    (VR : Valuation Cert.ReferenceIdeal.τ Cert.ReferenceIdeal.sig (Elt Ideal))
    (h : (VR (Proc.devRef .tc Cert.ReferenceIdeal.main_arg2) : IVec Cert.ReferenceIdeal.S4097 32)
      = VK (Proc.devRef .tc Cert.KernelIdeal.main_arg2)) :
    (StableHlo.after Cert.ReferenceIdeal.Hand.pre VR (Proc.devRef .tc Cert.ReferenceIdeal.main_v18) : IVec Cert.ReferenceIdeal.S167772 32)
      = StableHlo.after (List.flatten [Cert.KernelIdeal.Gen.hostOps0, Cert.KernelIdeal.Gen.hostOps0_1, Cert.KernelIdeal.Gen.hostOps0_2,
          Cert.KernelIdeal.Gen.hostOps0_3, Cert.KernelIdeal.Gen.hostOps0_4, Cert.KernelIdeal.Gen.hostOps0_5, Cert.KernelIdeal.Gen.hostOps0_6,
          Cert.KernelIdeal.Gen.hostOps0_7, Cert.KernelIdeal.Gen.hostOps0_8]) VK (Proc.devRef .tc Cert.KernelIdeal.main_v18) := by
  simp only [Cert.ReferenceIdeal.Hand.pre, Cert.ReferenceIdeal.Hand.s0, Cert.ReferenceIdeal.Hand.s1, Cert.ReferenceIdeal.Hand.s2,
    Cert.ReferenceIdeal.Hand.s3, Cert.ReferenceIdeal.Hand.s4, Cert.ReferenceIdeal.Hand.s5, Cert.ReferenceIdeal.Hand.s6,
    Cert.ReferenceIdeal.Hand.s7, Cert.ReferenceIdeal.Hand.s8,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    Cert.KernelIdeal.Gen.hostOps0_8,
    List.flatten_cons, List.flatten_nil, List.append_nil, List.cons_append, List.nil_append]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [h]
  rfl

end Cert.Cross

end
-- ==== Proof.Bridge.lean ====
/-
  The two programs shift the same index vectors.

  Both programs compute the row number of every stored value from the row offsets by the same integer
  operations, and both then add 4096 to every negative row number and to every negative column number. So when
  the two launches hold the same row offsets, the shifted row numbers are the same vector in both programs, and
  when they hold the same column numbers, so are the shifted column numbers. (The kernel program names the two
  results in the opposite order: its shifted column numbers come first.) The operations before the shift write
  none of the arguments.
-/
import Idealize.ShloMosaic.Lib.StableHlo.Run
import proofs.«126825_j56341380989458_2_alg».proof.Proof.Gen.KernelIdeal
import proofs.«126825_j56341380989458_2_alg».proof.Proof.Gen.KernelIdeal.Launch
import proofs.«126825_j56341380989458_2_alg».proof.Proof.RefValue
import proofs.«126825_j56341380989458_2_alg».proof.Proof.Cross

noncomputable section

namespace Cert.Bridge

open Idealize.ShloMosaic Idealize.ShloMosaic.TcCoe Idealize.SL.Sem Idealize.ShloMosaic.StableHlo

/-- The kernel program's operations up to the row number of every stored value. -/
abbrev preK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8]

open Cert.KernelIdeal Cert.KernelIdeal.Gen in
/-- None of them writes the activations, … -/
theorem preK_kept_0 (m : (ℓ : Loc Cert.KernelIdeal.nD Cert.KernelIdeal.τ Cert.KernelIdeal.sig) → Buf (Elt Ideal) ℓ) (c : Dev Cert.KernelIdeal.nD) :
    StableHlo.after preK (fun b => m (c, b)) (Proc.devRef .tc Cert.KernelIdeal.main_arg0)
      = m ((c.tc : Thread Cert.KernelIdeal.nD Cert.KernelIdeal.τ).loc Cert.KernelIdeal.main_arg0) :=
  StableHlo.after_of_forall_not_mem (b := Proc.devRef .tc main_arg0) _ _ (List.forall_iff_forall_mem.mp (by
    simp only [preK, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
open Cert.KernelIdeal Cert.KernelIdeal.Gen in
/-- … the stored values … -/
theorem preK_kept_1 (m : (ℓ : Loc Cert.KernelIdeal.nD Cert.KernelIdeal.τ Cert.KernelIdeal.sig) → Buf (Elt Ideal) ℓ) (c : Dev Cert.KernelIdeal.nD) :
    StableHlo.after preK (fun b => m (c, b)) (Proc.devRef .tc Cert.KernelIdeal.main_arg1)
      = m ((c.tc : Thread Cert.KernelIdeal.nD Cert.KernelIdeal.τ).loc Cert.KernelIdeal.main_arg1) :=
  StableHlo.after_of_forall_not_mem (b := Proc.devRef .tc main_arg1) _ _ (List.forall_iff_forall_mem.mp (by
    simp only [preK, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
open Cert.KernelIdeal Cert.KernelIdeal.Gen in
/-- … or the column numbers. -/
theorem preK_kept_3 (m : (ℓ : Loc Cert.KernelIdeal.nD Cert.KernelIdeal.τ Cert.KernelIdeal.sig) → Buf (Elt Ideal) ℓ) (c : Dev Cert.KernelIdeal.nD) :
    StableHlo.after preK (fun b => m (c, b)) (Proc.devRef .tc Cert.KernelIdeal.main_arg3)
      = m ((c.tc : Thread Cert.KernelIdeal.nD Cert.KernelIdeal.τ).loc Cert.KernelIdeal.main_arg3) :=
  StableHlo.after_of_forall_not_mem (b := Proc.devRef .tc main_arg3) _ _ (List.forall_iff_forall_mem.mp (by
    simp only [preK, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

open Cert.KernelIdeal Cert.KernelIdeal.Gen in
/-- The kernel program's shifted row numbers, as operations on the row numbers. -/
theorem rowsK_ops (W : Valuation Cert.KernelIdeal.τ Cert.KernelIdeal.sig (Elt Ideal)) :
    (StableHlo.after (hostOps0_9 (F := Ideal)) W (Proc.devRef .tc main_v29) : IVec S167772 32)
      = select (cmpi .slt (W (Proc.devRef .tc main_v18) : IVec S167772 32) (broadcastInDim S167772 ![] bcast_S_S167772 (constantI S_ 32 0#32)))
          (addi (W (Proc.devRef .tc main_v18) : IVec S167772 32) (broadcastInDim S167772 ![] bcast_S_S167772 (constantI S_ 32 4096#32)))
          (W (Proc.devRef .tc main_v18)) := by
  dsimp only [hostOps0_9]
  after_results_simp

open Cert.KernelIdeal Cert.KernelIdeal.Gen in
/-- The kernel program's shifted column numbers, as operations on the column numbers. -/
theorem colsK_ops (W : Valuation Cert.KernelIdeal.τ Cert.KernelIdeal.sig (Elt Ideal)) :
    (StableHlo.after (hostOps0_9 (F := Ideal)) W (Proc.devRef .tc main_v24) : IVec S167772 32)
      = select (cmpi .slt (W (Proc.devRef .tc main_arg3) : IVec S167772 32) (broadcastInDim S167772 ![] bcast_S_S167772 (constantI S_ 32 0#32)))
          (addi (W (Proc.devRef .tc main_arg3) : IVec S167772 32) (broadcastInDim S167772 ![] bcast_S_S167772 (constantI S_ 32 4096#32)))
          (W (Proc.devRef .tc main_arg3)) := by
  dsimp only [hostOps0_9]
  after_results_simp

/-- The shift is the same operation in the two programs: equal vectors have equal shifts. -/
theorem shift_congr {T : IVec Cert.ReferenceIdeal.S167772 32} {T' : IVec Cert.KernelIdeal.S167772 32} (h : T = T') :
    select (cmpi .slt T (broadcastInDim Cert.ReferenceIdeal.S167772 ![] Cert.ReferenceIdeal.Gen.bcast_S_S167772 (constantI Cert.ReferenceIdeal.S_ 32 0#32)))
        (addi T (broadcastInDim Cert.ReferenceIdeal.S167772 ![] Cert.ReferenceIdeal.Gen.bcast_S_S167772 (constantI Cert.ReferenceIdeal.S_ 32 4096#32))) T
      = select (cmpi .slt T' (broadcastInDim Cert.KernelIdeal.S167772 ![] Cert.KernelIdeal.Gen.bcast_S_S167772 (constantI Cert.KernelIdeal.S_ 32 0#32)))
        (addi T' (broadcastInDim Cert.KernelIdeal.S167772 ![] Cert.KernelIdeal.Gen.bcast_S_S167772 (constantI Cert.KernelIdeal.S_ 32 4096#32))) T' := by
  subst h
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- With the same row offsets at launch, the reference's shifted row numbers are the kernel program's. -/
theorem rows_eq
    (h2 : m' ((c.tc : Thread _ Cert.ReferenceIdeal.τ).loc Cert.ReferenceIdeal.main_arg2)
      = m ((c.tc : Thread _ Cert.KernelIdeal.τ).loc Cert.KernelIdeal.main_arg2)) :
    (Cert.ReferenceIdeal.Hand.rowsOf m' c : (⟨1, ![167772]⟩ : Shape).Idx → BitVec 32)
      = StableHlo.after Cert.KernelIdeal.Gen.hostOps0_9 (StableHlo.after preK (fun b => m (c, b))) (Proc.devRef .tc Cert.KernelIdeal.main_v29) :=
  (Cert.ReferenceIdeal.Hand.rows_ops (StableHlo.after Cert.ReferenceIdeal.Hand.pre (StableHlo.launchContents m' c))).trans
    ((shift_congr (Cert.Cross.rows_agree (fun b => m (c, b)) (StableHlo.launchContents m' c) h2)).trans
      (rowsK_ops (StableHlo.after preK (fun b => m (c, b)))).symm)

/-- With the same column numbers at launch, the reference's shifted column numbers are the kernel program's. -/
theorem cols_eq
    (h3 : m' ((c.tc : Thread _ Cert.ReferenceIdeal.τ).loc Cert.ReferenceIdeal.main_arg3)
      = m ((c.tc : Thread _ Cert.KernelIdeal.τ).loc Cert.KernelIdeal.main_arg3)) :
    (Cert.ReferenceIdeal.Hand.colsOf m' c : (⟨1, ![167772]⟩ : Shape).Idx → BitVec 32)
      = StableHlo.after Cert.KernelIdeal.Gen.hostOps0_9 (StableHlo.after preK (fun b => m (c, b))) (Proc.devRef .tc Cert.KernelIdeal.main_v24) :=
  (Cert.ReferenceIdeal.Hand.cols_ops (StableHlo.after Cert.ReferenceIdeal.Hand.pre (StableHlo.launchContents m' c))).trans
    ((shift_congr ((Cert.ReferenceIdeal.Hand.pre_kept3 m' c).trans (h3.trans (preK_kept_3 m c).symm))).trans
      (colsK_ops (StableHlo.after preK (fun b => m (c, b)))).symm)

end Cert.Bridge

end
-- ==== Proof.lean ====
/-
  The sparse linear layer: a blocked bf16 matrix product against an einsum, equal over the extended reals.

  Both programs build, from the row offsets, the row number of every stored value by the same chain of integer
  operations, and add the stored values into a zero 4096 × 4096 matrix: the reference at (row, column), the kernel
  program at (column, row) — the transposed weight. An entry of either matrix is the exact sum of the stored
  values whose index pair is that entry, so the two matrices are transposes of each other whatever the indices
  are. The reference contracts x[b, s, ·] with row o of its matrix. The kernel program flattens x to an
  8192 × 4096 matrix, multiplies it by the transposed weight in 2048 × 1024 output blocks, each accumulated over
  8 blocks of 512 features, and reshapes back. Over the extended reals the changes of float format are the
  identity and a finite sum depends neither on the order nor on the grouping of its terms, so both results are
      y[b, s, o] = ∑ᵢ x[b, s, i] · weight[o, i]
  with no condition on the inputs: the precondition is never opened. The ideal pass rewrote nothing, so the
  idealization claim is trivial.
-/
import proofs.«126825_j56341380989458_2_alg».proof.Defs
import proofs.«126825_j56341380989458_2_alg».proof.Proof.Gen.Kernel
import proofs.«126825_j56341380989458_2_alg».proof.Proof.Gen.Kernel.Frame
import proofs.«126825_j56341380989458_2_alg».proof.Proof.Gen.KernelIdeal
import proofs.«126825_j56341380989458_2_alg».proof.Proof.Gen.KernelIdeal.Frame
import proofs.«126825_j56341380989458_2_alg».proof.Proof.Gen.ReferenceIdeal
import proofs.«126825_j56341380989458_2_alg».proof.Proof.Gen.Pre_finite_inputs
import proofs.«126825_j56341380989458_2_alg».proof.Proof.KernelValue
import proofs.«126825_j56341380989458_2_alg».proof.Proof.RefValue
import proofs.«126825_j56341380989458_2_alg».proof.Proof.ScatterValue
import proofs.«126825_j56341380989458_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2)
    (Cert.ReferenceIdeal.Hand.run_value Cert.ReferenceIdeal.ScatterValue.weight_ref m ρ)

/-- The ideal pass rewrote no operation. -/
theorem preserves : Cert.preserves_Kernel_KernelIdeal := trivial

/-- Both programs end at the layer's result of arguments that agree: the same activations and stored values, and
    the same two index vectors (the row numbers by the shared integer chain, the columns as given). -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Hand.run_value Cert.ReferenceIdeal.ScatterValue.weight_ref m' ρ')
  show Cert.Spmm.out _ (Cert.Spmm.weight _ _ _) = Cert.Spmm.out _ (Cert.Spmm.weight _ _ _)
  rw [(hagree c).1, (hagree c).2.1, Cert.Bridge.rows_eq m m' c (hagree c).2.2.1, Cert.Bridge.cols_eq m m' c (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
